-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S512 : Shape := ⟨1, ![512]⟩
abbrev S256x512 : Shape := ⟨2, ![256, 512]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S16x4096x128 .f32) (main_arg1 : FVec F S512 .f32) (main_arg2 : FVec F S512 .f32) (main_arg3 : FVec F S256x512 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S16x4096x128 : Shape := ⟨3, ![16, 4096, 128]⟩
abbrev S512 : Shape := ⟨1, ![512]⟩
abbrev S256x512 : Shape := ⟨2, ![256, 512]⟩
abbrev S512x2x64x128 : Shape := ⟨4, ![512, 2, 64, 128]⟩
abbrev S1x512 : Shape := ⟨2, ![1, 512]⟩
abbrev S16384x256 : Shape := ⟨2, ![16384, 256]⟩
abbrev S128x2x64x128 : Shape := ⟨4, ![128, 2, 64, 128]⟩
abbrev S4096x256 : Shape := ⟨2, ![4096, 256]⟩
abbrev S128x1x64x128 : Shape := ⟨4, ![128, 1, 64, 128]⟩
abbrev S128x64x128 : Shape := ⟨3, ![128, 64, 128]⟩
abbrev S1x256 : Shape := ⟨2, ![1, 256]⟩
abbrev S1x4096 : Shape := ⟨2, ![1, 4096]⟩
abbrev S4096x1 : Shape := ⟨2, ![4096, 1]⟩
abbrev S4096x128 : Shape := ⟨2, ![4096, 128]⟩
abbrev S256x128 : Shape := ⟨2, ![256, 128]⟩
abbrev S16x1024x256 : Shape := ⟨3, ![16, 1024, 256]⟩

abbrev nBuf : Space → Nat
  | .hbm => 9
  | .vmem => 7
  | .smem => 0
  | _ => 0

abbrev bufTy : (tb : Table) → Fin (tcTables nBuf tb) → BufTy
  | .hbm, ⟨0, _⟩ => ⟨S16x4096x128, .f32⟩
  | .hbm, ⟨1, _⟩ => ⟨S512, .f32⟩
  | .hbm, ⟨2, _⟩ => ⟨S512, .f32⟩
  | .hbm, ⟨3, _⟩ => ⟨S256x512, .f32⟩
  | .hbm, ⟨4, _⟩ => ⟨S512x2x64x128, .f32⟩
  | .hbm, ⟨5, _⟩ => ⟨S1x512, .f32⟩
  | .hbm, ⟨6, _⟩ => ⟨S1x512, .f32⟩
  | .hbm, ⟨7, _⟩ => ⟨S16384x256, .f32⟩
  | .hbm, ⟨8, _⟩ => ⟨S16x1024x256, .f32⟩
  | .local _ .vmem, ⟨0, _⟩ => ⟨S128x2x64x128, .f32⟩
  | .local _ .vmem, ⟨1, _⟩ => ⟨S128x2x64x128, .f32⟩
  | .local _ .vmem, ⟨2, _⟩ => ⟨S1x512, .f32⟩
  | .local _ .vmem, ⟨3, _⟩ => ⟨S1x512, .f32⟩
  | .local _ .vmem, ⟨4, _⟩ => ⟨S256x512, .f32⟩
  | .local _ .vmem, ⟨5, _⟩ => ⟨S4096x256, .f32⟩
  | .local _ .vmem, ⟨6, _⟩ => ⟨S4096x256, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x128_S512x2x64x128 : S16x4096x128.ShapeCasts S512x2x64x128
  shapeCasts_S512_S1x512 : S512.ShapeCasts S1x512
  inb_S128x2x64x128_S128x2x64x128_0_0_0_0 : ∀ a, (![0, 0, 0, 0] : Fin 4 → Nat) a + S128x2x64x128.size a ≤ S128x2x64x128.size a
  h_S128x2x64x128 : 0 < S128x2x64x128.numel
  shapeCasts_S128x2x64x128_S128x2x64x128 : S128x2x64x128.ShapeCasts S128x2x64x128
  slices_S128x2x64x128_o0_0_0_0_S128x1x64x128 : S128x2x64x128.Slices ![0, 0, 0, 0] S128x1x64x128
  shapeCasts_S128x1x64x128_S128x64x128 : S128x1x64x128.ShapeCasts S128x64x128
  bitsLt_bf16_f32 : FTy.bits .bf16 < FTy.bits .f32
  shapeCasts_S128x64x128_S4096x256 : S128x64x128.ShapeCasts S4096x256
  slices_S128x2x64x128_o0_1_0_0_S128x1x64x128 : S128x2x64x128.Slices ![0, 1, 0, 0] S128x1x64x128
  transposes_S1x4096_p1_0_S4096x1 : S1x4096.Transposes [1, 0] S4096x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  broadcasts_S1x512_S256x512 : S1x512.Broadcasts S256x512
  slices_S4096x256_o0_0_S4096x128 : S4096x256.Slices ![0, 0] S4096x128
  slices_S4096x256_o0_128_S4096x128 : S4096x256.Slices ![0, 128] S4096x128
  slices_S256x512_o0_0_S256x128 : S256x512.Slices ![0, 0] S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  broadcasts_S4096x1_S4096x256 : S4096x1.Broadcasts S4096x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S16384x256_S16x1024x256 : S16384x256.ShapeCasts S16x1024x256
  dot_S1x256_S4096x256_S1x4096_1_1_0_0_n_n_wf : DotDims.WF S1x256 S4096x256 S1x4096 [1] [1] [0] [0] [] []
  dot_S1x512_S256x512_S1x256_1_1_0_0_n_n_wf : DotDims.WF S1x512 S256x512 S1x256 [1] [1] [0] [0] [] []
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x64x128.size a ≤ S512x2x64x128.size a
  hwx0_0 : ∀ i : grid0.Coords, EltTy.bits .f32 = 32 ∨ (Rect.block (s := S512x2x64x128) S128x2x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S16384x256.size a
  hwx0_4 : ∀ i : grid0.Coords, EltTy.bits .f32 = 32 ∨ (Rect.block (s := S16384x256) S4096x256.size (cc0_transform_4 i) (hinb0_4 i)).WholeWords (EltTy.packing .f32)

variable [Facts₀]

def dot_S1x256_S4096x256_S1x4096_1_1_0_0_n_n : DotDims S1x256 S4096x256 S1x4096 where
  lhsContracting := [1]
  rhsContracting := [1]
  lhsNonContracting := [0]
  rhsNonContracting := [0]
  lhsBatch := []
  rhsBatch := []
  wf := dot_S1x256_S4096x256_S1x4096_1_1_0_0_n_n_wf
def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_v0) S128x2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S512 : Shape := ⟨1, ![512]⟩
abbrev S256x512 : Shape := ⟨2, ![256, 512]⟩
abbrev S16x64x64x128 : Shape := ⟨4, ![16, 64, 64, 128]⟩
abbrev S512x2x32x256 : Shape := ⟨4, ![512, 2, 32, 256]⟩
abbrev S2x256 : Shape := ⟨2, ![2, 256]⟩
abbrev S512x256 : Shape := ⟨2, ![512, 256]⟩
abbrev S2x256x256 : Shape := ⟨3, ![2, 256, 256]⟩
abbrev S16384x256 : Shape := ⟨2, ![16384, 256]⟩
abbrev S32x2x32x256 : Shape := ⟨4, ![32, 2, 32, 256]⟩
abbrev S1024x256 : Shape := ⟨2, ![1024, 256]⟩
abbrev S32x1x32x256 : Shape := ⟨4, ![32, 1, 32, 256]⟩
abbrev S32x32x256 : Shape := ⟨3, ![32, 32, 256]⟩
abbrev S1024 : Shape := ⟨1, ![1024]⟩
abbrev S1024x1 : Shape := ⟨2, ![1024, 1]⟩
abbrev S1x256 : Shape := ⟨2, ![1, 256]⟩
abbrev S1x256x256 : Shape := ⟨3, ![1, 256, 256]⟩
abbrev S256x256 : Shape := ⟨2, ![256, 256]⟩
abbrev S16x1024x256 : Shape := ⟨3, ![16, 1024, 256]⟩

abbrev nBuf : Space → Nat
  | .hbm => 12
  | .vmem => 7
  | .smem => 0
  | _ => 0

abbrev bufTy : (tb : Table) → Fin (tcTables nBuf tb) → BufTy
  | .hbm, ⟨0, _⟩ => ⟨S16x4096x128, .f32⟩
  | .hbm, ⟨1, _⟩ => ⟨S512, .f32⟩
  | .hbm, ⟨2, _⟩ => ⟨S512, .f32⟩
  | .hbm, ⟨3, _⟩ => ⟨S256x512, .f32⟩
  | .hbm, ⟨4, _⟩ => ⟨S16x64x64x128, .f32⟩
  | .hbm, ⟨5, _⟩ => ⟨S512x2x32x256, .f32⟩
  | .hbm, ⟨6, _⟩ => ⟨S2x256, .f32⟩
  | .hbm, ⟨7, _⟩ => ⟨S2x256, .f32⟩
  | .hbm, ⟨8, _⟩ => ⟨S512x256, .f32⟩
  | .hbm, ⟨9, _⟩ => ⟨S2x256x256, .f32⟩
  | .hbm, ⟨10, _⟩ => ⟨S16384x256, .f32⟩
  | .hbm, ⟨11, _⟩ => ⟨S16x1024x256, .f32⟩
  | .local _ .vmem, ⟨0, _⟩ => ⟨S32x2x32x256, .f32⟩
  | .local _ .vmem, ⟨1, _⟩ => ⟨S32x2x32x256, .f32⟩
  | .local _ .vmem, ⟨2, _⟩ => ⟨S2x256, .f32⟩
  | .local _ .vmem, ⟨3, _⟩ => ⟨S2x256, .f32⟩
  | .local _ .vmem, ⟨4, _⟩ => ⟨S2x256x256, .f32⟩
  | .local _ .vmem, ⟨5, _⟩ => ⟨S1024x256, .f32⟩
  | .local _ .vmem, ⟨6, _⟩ => ⟨S1024x256, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x128_S16x64x64x128 : S16x4096x128.ShapeCasts S16x64x64x128
  shapeCasts_S16x64x64x128_S512x2x32x256 : S16x64x64x128.ShapeCasts S512x2x32x256
  shapeCasts_S512_S2x256 : S512.ShapeCasts S2x256
  transposes_S256x512_S512x256_1_0 : S256x512.Transposes [1, 0] S512x256
  shapeCasts_S512x256_S2x256x256 : S512x256.ShapeCasts S2x256x256
  inb_S32x2x32x256_S32x2x32x256_0_0_0_0 : ∀ a, (![0, 0, 0, 0] : Fin 4 → Nat) a + S32x2x32x256.size a ≤ S32x2x32x256.size a
  h_S32x2x32x256 : 0 < S32x2x32x256.numel
  shapeCasts_S32x2x32x256_S32x2x32x256 : S32x2x32x256.ShapeCasts S32x2x32x256
  slices_S32x2x32x256_o0_0_0_0_S32x1x32x256 : S32x2x32x256.Slices ![0, 0, 0, 0] S32x1x32x256
  shapeCasts_S32x1x32x256_S32x32x256 : S32x1x32x256.ShapeCasts S32x32x256
  shapeCasts_S32x32x256_S1024x256 : S32x32x256.ShapeCasts S1024x256
  slices_S32x2x32x256_o0_1_0_0_S32x1x32x256 : S32x2x32x256.Slices ![0, 1, 0, 0] S32x1x32x256
  reduces_S1024x256_S1024 : S1024x256.Reduces [1] S1024
  shapeCasts_S1024_S1024x1 : S1024.ShapeCasts S1024x1
  broadcasts_S1024x1_S1024x256 : S1024x1.Broadcasts S1024x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  broadcasts_S1x256_S1024x256 : S1x256.Broadcasts S1024x256
  slices_S2x256_o1_0_S1x256 : S2x256.Slices ![1, 0] S1x256
  inb_S2x256x256_S2x256x256_0_0_0 : ∀ a, (![0, 0, 0] : Fin 3 → Nat) a + S2x256x256.size a ≤ S2x256x256.size a
  h_S2x256x256 : 0 < S2x256x256.numel
  shapeCasts_S2x256x256_S2x256x256 : S2x256x256.ShapeCasts S2x256x256
  slices_S2x256x256_o0_0_0_S1x256x256 : S2x256x256.Slices ![0, 0, 0] S1x256x256
  shapeCasts_S1x256x256_S256x256 : S1x256x256.ShapeCasts S256x256
  slices_S2x256x256_o1_0_0_S1x256x256 : S2x256x256.Slices ![1, 0, 0] S1x256x256
  inb_S1024x256_S1024x256_0_0 : ∀ a, (![0, 0] : Fin 2 → Nat) a + S1024x256.size a ≤ S1024x256.size a
  h_S1024x256 : 0 < S1024x256.numel
  shapeCasts_S16384x256_S16x1024x256 : S16384x256.ShapeCasts S16x1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x32x256.size a ≤ S512x2x32x256.size a
  hwx0_0 : ∀ i : grid0.Coords, EltTy.bits .f32 = 32 ∨ (Rect.block (s := S512x2x32x256) S32x2x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .f32 = 32 ∨ (Rect.block (s := S2x256) S2x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256x256.size a ≤ S2x256x256.size a
  hwx0_3 : ∀ i : grid0.Coords, EltTy.bits .f32 = 32 ∨ (Rect.block (s := S2x256x256) S2x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v1) S32x2x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.TokenNorm.lean ====
/-
  One merged token's LayerNorm followed by the linear projection, written twice over the extended reals.

  A merged token is 512 numbers, held as two half-rows of 256 (`t0`: the even image row, `t1`: the odd one);
  `g`, `b` are the LayerNorm scale and shift over the 512 merged channels and `wrow` is one row of the
  projection matrix (one output channel). Both arrangements use the same three constants: `one` (the
  bfloat16 pattern of 1), `invN` (the float32 pattern of 1/512) and `eps` (the float32 pattern nearest 1e-5).

  * `rowK` — the folded arrangement: the row sums `s = Σ x` and `q = Σ x²` are taken as products with a row
    of ones, the variance is `q/512 − mean²`, and the affine map is pushed through the projection:
    `inv · Σ x·(w·g) − (inv · mean) · Σ (w·g) + Σ b·w`, the first sum taken in four stretches of 128.
  * `rowR` — the textbook arrangement: centre, take the variance of the centred values, normalise, scale and
    shift, then project, the projection sum taken in two stretches of 256.

  That the two agree on real inputs is proved in `NormAlgebra.lean`; that each program computes its
  arrangement at every output entry is proved in the modules that read the programs.
-/
import Idealize.ShloMosaic.PureOps.Ideal
import Idealize.ShloMosaic.Lib.ValueIdx

noncomputable section

namespace Cert.TokenNorm

open Idealize.ShloMosaic

/-- The bfloat16 pattern `0x3F80` (the number 1). -/
def one : EReal := Ideal.ofBits .bf16 0x3F80#16
/-- The float32 pattern `0x3B000000` (the number 1/512). -/
def invN : EReal := Ideal.ofBits .f32 0x3B000000#32
/-- The float32 pattern `0x3727C5AC` (the float32 nearest 1e-5). -/
def eps : EReal := Ideal.ofBits .f32 0x3727C5AC#32

/-- Channel `c` of the first half-row as a merged channel. -/
abbrev lo (c : Fin 256) : Fin 512 := ⟨c.val, by omega⟩
/-- Channel `c` of the second half-row as a merged channel. -/
abbrev up (c : Fin 256) : Fin 512 := ⟨256 + c.val, by omega⟩
/-- The first 128 channels of a half-row. -/
abbrev h0 (c : Fin 128) : Fin 256 := ⟨c.val, by omega⟩
/-- The last 128 channels of a half-row. -/
abbrev h1 (c : Fin 128) : Fin 256 := ⟨128 + c.val, by omega⟩
/-- The four stretches of 128 merged channels. -/
abbrev q0 (c : Fin 128) : Fin 512 := ⟨c.val, by omega⟩
abbrev q1 (c : Fin 128) : Fin 512 := ⟨128 + c.val, by omega⟩
abbrev q2 (c : Fin 128) : Fin 512 := ⟨256 + c.val, by omega⟩
abbrev q3 (c : Fin 128) : Fin 512 := ⟨384 + c.val, by omega⟩

/-! ## The folded arrangement -/

/-- The mean, as the product of the row sum (taken against a row of ones) with 1/512. -/
def meanK (t0 t1 : Fin 256 → EReal) : EReal :=
  ((∑ c : Fin 256, one * t0 c) + (∑ c : Fin 256, one * t1 c)) * invN

/-- The reciprocal standard deviation from `E[x²] − mean²`. -/
def invK (t0 t1 : Fin 256 → EReal) : EReal :=
  Ideal.rsqrt ((((∑ c : Fin 256, one * (t0 c * t0 c)) + (∑ c : Fin 256, one * (t1 c * t1 c))) * invN
    - meanK t0 t1 * meanK t0 t1) + eps)

/-- The token's product with the scaled weights, in four stretches of 128 channels. -/
def dotK (t0 t1 : Fin 256 → EReal) (g wrow : Fin 512 → EReal) : EReal :=
  (((∑ c : Fin 128, t0 (h0 c) * (wrow (q0 c) * g (q0 c))) + (∑ c : Fin 128, t0 (h1 c) * (wrow (q1 c) * g (q1 c))))
    + (∑ c : Fin 128, t1 (h0 c) * (wrow (q2 c) * g (q2 c)))) + (∑ c : Fin 128, t1 (h1 c) * (wrow (q3 c) * g (q3 c)))

/-- One output entry in the folded arrangement. -/
def rowK (t0 t1 : Fin 256 → EReal) (g b wrow : Fin 512 → EReal) : EReal :=
  (dotK t0 t1 g wrow * invK t0 t1 - (invK t0 t1 * meanK t0 t1) * (∑ k : Fin 512, one * (wrow k * g k)))
    + (∑ k : Fin 512, b k * wrow k)

/-! ## The textbook arrangement -/

/-- The mean, as the row sum times 1/512. -/
def meanR (t0 t1 : Fin 256 → EReal) : EReal :=
  ((∑ c : Fin 256, t0 c) + (∑ c : Fin 256, t1 c)) * invN

/-- The reciprocal standard deviation from the centred values. -/
def invR (t0 t1 : Fin 256 → EReal) : EReal :=
  Ideal.rsqrt ((((∑ c : Fin 256, (t0 c - meanR t0 t1) * (t0 c - meanR t0 t1))
    + (∑ c : Fin 256, (t1 c - meanR t0 t1) * (t1 c - meanR t0 t1))) * invN) + eps)

/-- One output entry in the textbook arrangement. -/
def rowR (t0 t1 : Fin 256 → EReal) (g b wrow : Fin 512 → EReal) : EReal :=
  (∑ c : Fin 256, ((t0 c - meanR t0 t1) * invR t0 t1 * g (lo c) + b (lo c)) * wrow (lo c))
    + (∑ c : Fin 256, ((t1 c - meanR t0 t1) * invR t0 t1 * g (up c) + b (up c)) * wrow (up c))

/-! ## The merged tokens of the argument arrays

The image batch `x : [16, 4096, 128]` is 16 images of 64 × 64 pixels of 128 channels. Merged token `r`
(`r = 1024·image + 32·(image row pair) + (column pair)`) gathers the 2 × 2 pixels of its row pair and column
pair: half-row `p` is image row `2·(row pair) + p`, and its 256 channels are the two pixels of the column pair
side by side (`c / 128` picks the pixel, `c % 128` the channel). -/

/-- Channel `c` of half-row `p` of merged token `r`. -/
def half (x : (⟨3, ![16, 4096, 128]⟩ : Shape).Idx → EReal) (r : Fin 16384) (p : Fin 2) (c : Fin 256) : EReal :=
  x (ValueIdx.ix3 (⟨r.val / 1024, by omega⟩ : Fin 16)
    (⟨r.val / 32 % 32 * 128 + p.val * 64 + 2 * (r.val % 32) + c.val / 128, by omega⟩ : Fin 4096)
    (⟨c.val % 128, by omega⟩ : Fin 128))

/-- The whole result, as a 16384 × 256 matrix (token, output channel), in the folded arrangement. -/
def outK (x : (⟨3, ![16, 4096, 128]⟩ : Shape).Idx → EReal) (g b : (⟨1, ![512]⟩ : Shape).Idx → EReal)
    (w : (⟨2, ![256, 512]⟩ : Shape).Idx → EReal) : (⟨2, ![16384, 256]⟩ : Shape).Idx → EReal := fun j =>
  rowK (half x (j 0) 0) (half x (j 0) 1) (fun k => g (ValueIdx.ix1 k)) (fun k => b (ValueIdx.ix1 k)) (fun k => w (ValueIdx.ix2 (j 1) k))

/-- The whole result in the textbook arrangement. -/
def outR (x : (⟨3, ![16, 4096, 128]⟩ : Shape).Idx → EReal) (g b : (⟨1, ![512]⟩ : Shape).Idx → EReal)
    (w : (⟨2, ![256, 512]⟩ : Shape).Idx → EReal) : (⟨2, ![16384, 256]⟩ : Shape).Idx → EReal := fun j =>
  rowR (half x (j 0) 0) (half x (j 0) 1) (fun k => g (ValueIdx.ix1 k)) (fun k => b (ValueIdx.ix1 k)) (fun k => w (ValueIdx.ix2 (j 1) k))

end Cert.TokenNorm

end
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  One entry of the block the kernel body writes, as the folded LayerNorm + projection of one merged token.

  The body receives a block `x0 : [128, 2, 64, 128]` of the image batch (128 row pairs; axis 1 is the even or the odd
  image row; 64 pixels of 128 channels each), the LayerNorm scale `x1` and shift `x2` as `[1, 512]` rows, and the
  projection matrix `x3 : [256, 512]`, and writes a `[4096, 256]` block: row `rr` is the merged token of row pair
  `rr / 32` and column pair `rr % 32`. Each image row of the block is recast from `[128, 64, 128]` to `[4096, 256]`:
  row `rr`, lane `c` is pixel `2·(rr % 32) + c / 128`, channel `c % 128` — two neighbouring pixels side by side.
  The row sums and sums of squares are products with a row of ones, the scale is folded into the weights
  (`w · g`), and the four products over 128 lanes add up to the token's product with the scaled weights. Read at one
  entry `(rr, o)` this is `TokenNorm.rowK` of the token's two half-rows, `g`, `b` and row `o` of the weights.
-/
import proofs.«149109_g2000604256433566_pallasbulk_677_19_alg».proof.Proof.Gen.KernelIdeal.Frame
import proofs.«149109_g2000604256433566_pallasbulk_677_19_alg».proof.Proof.TokenNorm
import proofs.«149109_g2000604256433566_pallasbulk_677_19_alg».proof.Proof.LibMatmulRowsByRows
import proofs.«149109_g2000604256433566_pallasbulk_677_19_alg».proof.Proof.LibColumnBroadcast
import Idealize.ShloMosaic.Lib.ValueLayout
import Idealize.ShloMosaic.Lib.Pipeline.Value

noncomputable section

namespace Cert.KernelIdeal.RowValue

open Idealize.ShloMosaic Idealize.ShloMosaic.ValueIdx Cert.KernelIdeal Cert.KernelIdeal.Gen Cert.TokenNorm

/-! ## The two half-rows of a token, read off the block -/

/-- Pixel and channel of lane `c` of block row `rr`, in image row `p` of the block. -/
abbrev pix (x0 : Vec Ideal S128x2x64x128 .f32) (rr : Fin 4096) (p : Fin 2) (c : Fin 256) : EReal :=
  x0 (ix4 (⟨rr.val / 32, by omega⟩ : Fin 128) p (⟨2 * (rr.val % 32) + c.val / 128, by omega⟩ : Fin 64)
    (⟨c.val % 128, by omega⟩ : Fin 128))

/-- The even image row recast to `[4096, 256]`. -/
theorem evenHalf_apply (x0 : Vec Ideal S128x2x64x128 .f32) (rr : Fin 4096) (c : Fin 256) :
    k0_pay3 (F := Ideal) x0 (ix2 rr c) = pix x0 rr 0 c := by
  unfold k0_pay3 k0_pay2
  rw [shapeCast_self]
  refine (shapeCast_apply _ _ (ix2 rr c) (ix3 (⟨rr.val / 32, by omega⟩ : Fin 128) (⟨2 * (rr.val % 32) + c.val / 128, by omega⟩ : Fin 64)
      (⟨c.val % 128, by omega⟩ : Fin 128)) ?_).trans ?_
  · rw [Shape.rowMajor_val_three, Shape.rowMajor_val_two]
    show (rr.val / 32 * 64 + (2 * (rr.val % 32) + c.val / 128)) * 128 + c.val % 128 = rr.val * 256 + c.val
    omega
  rw [truncf_apply]
  refine (shapeCast_apply _ _ (ix3 (⟨rr.val / 32, by omega⟩ : Fin 128) (⟨2 * (rr.val % 32) + c.val / 128, by omega⟩ : Fin 64)
      (⟨c.val % 128, by omega⟩ : Fin 128)) (ix4 (⟨rr.val / 32, by omega⟩ : Fin 128) (0 : Fin 1) (⟨2 * (rr.val % 32) + c.val / 128, by omega⟩ : Fin 64)
      (⟨c.val % 128, by omega⟩ : Fin 128)) ?_).trans ?_
  · rw [Shape.rowMajor_val_four, Shape.rowMajor_val_three]
    show ((rr.val / 32 * 1 + 0) * 64 + (2 * (rr.val % 32) + c.val / 128)) * 128 + c.val % 128
      = (rr.val / 32 * 64 + (2 * (rr.val % 32) + c.val / 128)) * 128 + c.val % 128
    omega
  exact slice4_axis1_apply 0 _ _ _ (0 : Fin 1) _ _ (0 : Fin 2) rfl

/-- The odd image row recast to `[4096, 256]`. -/
theorem oddHalf_apply (x0 : Vec Ideal S128x2x64x128 .f32) (rr : Fin 4096) (c : Fin 256) :
    k0_pay4 (F := Ideal) x0 (ix2 rr c) = pix x0 rr 1 c := by
  unfold k0_pay4 k0_pay2
  rw [shapeCast_self]
  refine (shapeCast_apply _ _ (ix2 rr c) (ix3 (⟨rr.val / 32, by omega⟩ : Fin 128) (⟨2 * (rr.val % 32) + c.val / 128, by omega⟩ : Fin 64)
      (⟨c.val % 128, by omega⟩ : Fin 128)) ?_).trans ?_
  · rw [Shape.rowMajor_val_three, Shape.rowMajor_val_two]
    show (rr.val / 32 * 64 + (2 * (rr.val % 32) + c.val / 128)) * 128 + c.val % 128 = rr.val * 256 + c.val
    omega
  rw [truncf_apply]
  refine (shapeCast_apply _ _ (ix3 (⟨rr.val / 32, by omega⟩ : Fin 128) (⟨2 * (rr.val % 32) + c.val / 128, by omega⟩ : Fin 64)
      (⟨c.val % 128, by omega⟩ : Fin 128)) (ix4 (⟨rr.val / 32, by omega⟩ : Fin 128) (0 : Fin 1) (⟨2 * (rr.val % 32) + c.val / 128, by omega⟩ : Fin 64)
      (⟨c.val % 128, by omega⟩ : Fin 128)) ?_).trans ?_
  · rw [Shape.rowMajor_val_four, Shape.rowMajor_val_three]
    show ((rr.val / 32 * 1 + 0) * 64 + (2 * (rr.val % 32) + c.val / 128)) * 128 + c.val % 128
      = (rr.val / 32 * 64 + (2 * (rr.val % 32) + c.val / 128)) * 128 + c.val % 128
    omega
  exact slice4_axis1_apply 1 _ _ _ (0 : Fin 1) _ _ (1 : Fin 2) rfl

/-! ## Row sums as products with a row of ones -/

/-- A row of ones times the transpose of a `[4096, 256]` matrix: entry `rr` is the sum of row `rr`, each term times one. -/
theorem onesDot_apply (v : FVec Ideal S4096x256 .bf16) (u : Fin 1) (rr : Fin 4096) :
    matmul dot_S1x256_S4096x256_S1x4096_1_1_0_0_n_n none (k0_pay5 (F := Ideal)) v (constant S1x4096 .f32 0x00000000#32) (ix2 u rr)
      = ∑ c : Fin 256, one * v (ix2 rr c) :=
  (matmul_rows_rows_apply Facts₀.dot_S1x256_S4096x256_S1x4096_1_1_0_0_n_n_wf none (k0_pay5 (F := Ideal)) v u rr).trans
    (Finset.sum_congr rfl fun _ _ => rfl)

/-- The mean of token `rr`. -/
theorem mean_apply (x0 : Vec Ideal S128x2x64x128 .f32) (u : Fin 1) (rr : Fin 4096) :
    k0_pay6 (F := Ideal) x0 (ix2 u rr) = meanK (pix x0 rr 0) (pix x0 rr 1) := by
  unfold k0_pay6 meanK
  simp only [mulf_apply, addf_apply, broadcast_apply, onesDot_apply, evenHalf_apply, oddHalf_apply]
  rfl

/-- The reciprocal standard deviation of token `rr`. -/
theorem inv_apply (x0 : Vec Ideal S128x2x64x128 .f32) (u : Fin 1) (rr : Fin 4096) :
    k0_pay7 (F := Ideal) x0 (ix2 u rr) = invK (pix x0 rr 0) (pix x0 rr 1) := by
  unfold k0_pay7 invK
  simp only [rsqrt, mulf_apply, addf_apply, subf_apply, broadcast_apply, onesDot_apply, evenHalf_apply, oddHalf_apply, mean_apply]
  rfl

/-- The reciprocal standard deviations as a column. -/
theorem invCol_apply (x0 : Vec Ideal S128x2x64x128 .f32) (rr : Fin 4096) (u : Fin 1) :
    k0_pay8 (F := Ideal) x0 (ix2 rr u) = invK (pix x0 rr 0) (pix x0 rr 1) := by
  unfold k0_pay8
  exact (transpose_ix2_apply _ _ rr u).trans (inv_apply x0 u rr)

/-- The products `inv · mean` as a column. -/
theorem invMeanCol_apply (x0 : Vec Ideal S128x2x64x128 .f32) (rr : Fin 4096) (u : Fin 1) :
    k0_pay9 (F := Ideal) x0 (ix2 rr u) = invK (pix x0 rr 0) (pix x0 rr 1) * meanK (pix x0 rr 0) (pix x0 rr 1) := by
  unfold k0_pay9
  refine (transpose_ix2_apply _ _ rr u).trans ?_
  rw [mulf_apply, inv_apply, mean_apply]

/-! ## The weights -/

/-- The weights with the LayerNorm scale folded in. -/
theorem scaledWeights_apply (x1 : Vec Ideal S1x512 .f32) (x3 : Vec Ideal S256x512 .f32) (o : Fin 256) (k : Fin 512) :
    k0_pay12 (F := Ideal) x1 x3 (ix2 o k) = x3 (ix2 o k) * x1 (ix2 (0 : Fin 1) k) := by
  unfold k0_pay12
  rw [truncf_apply, mulf_apply, shapeCast_self, broadcastTo_1b_ab_apply]

theorem weights_apply (x3 : Vec Ideal S256x512 .f32) (i : S256x512.Idx) : k0_pay11 (F := Ideal) x3 i = x3 i := rfl

theorem shift_eq (x2 : Vec Ideal S1x512 .f32) : k0_pay10 (F := Ideal) x2 = x2 := by
  unfold k0_pay10; exact shapeCast_self _ _

/-! ## The stored value -/

/-- One of the four products over a stretch of 128 lanes: lanes `offA ..` of a half-row against columns `offB ..` of
    the scaled weights. -/
theorem stretch_apply (A : FVec Ideal S4096x256 .bf16) (B : FVec Ideal S256x512 .bf16) (offA offB : ℕ)
    (hA : S4096x256.Slices ![0, offA] S4096x128) (hB : S256x512.Slices ![0, offB] S256x128)
    (fa : Fin 128 → Fin 256) (fb : Fin 128 → Fin 512) (hfa : ∀ c, (fa c).val = offA + c.val) (hfb : ∀ c, (fb c).val = offB + c.val)
    (rr : Fin 4096) (o : Fin 256) :
    matmul dot_S4096x128_S256x128_S4096x256_1_1_0_0_n_n none (extractStridedSlice S4096x128 ![0, offA] A hA)
        (extractStridedSlice S256x128 ![0, offB] B hB) (constant S4096x256 .f32 0x00000000#32) (ix2 rr o)
      = ∑ c : Fin 128, A (ix2 rr (fa c)) * B (ix2 o (fb c)) :=
  (matmul_rows_rows_apply Facts₀.dot_S4096x128_S256x128_S4096x256_1_1_0_0_n_n_wf none _ _ rr o).trans
    (Finset.sum_congr rfl fun c _ => by
      rw [slice2_axis1_apply offA A hA rr c (fa c) (hfa c), slice2_axis1_apply offB B hB o c (fb c) (hfb c)])

/-- The column sums of the scaled weights, as a product with a row of ones. -/
theorem onesDotWeights_apply (B : FVec Ideal S256x512 .bf16) (cst : Ideal .bf16) (u : Fin 1) (o : Fin 256) :
    matmul dot_S1x512_S256x512_S1x256_1_1_0_0_n_n none (broadcast S1x512 cst) B (constant S1x256 .f32 0x00000000#32) (ix2 u o)
      = ∑ k : Fin 512, cst * B (ix2 o k) :=
  (matmul_rows_rows_apply Facts₀.dot_S1x512_S256x512_S1x256_1_1_0_0_n_n_wf none (broadcast S1x512 cst) B u o).trans
    (Finset.sum_congr rfl fun _ _ => rfl)

/-- The shift's product with the weights. -/
theorem shiftDot_apply (v : FVec Ideal S1x512 .f32) (B : FVec Ideal S256x512 .bf16) (u : Fin 1) (o : Fin 256) :
    matmul dot_S1x512_S256x512_S1x256_1_1_0_0_n_n none (truncf .bf16 v Facts₀.bitsLt_bf16_f32) B (constant S1x256 .f32 0x00000000#32) (ix2 u o)
      = ∑ k : Fin 512, v (ix2 u k) * B (ix2 o k) :=
  (matmul_rows_rows_apply Facts₀.dot_S1x512_S256x512_S1x256_1_1_0_0_n_n_wf none _ B u o).trans
    (Finset.sum_congr rfl fun _ _ => rfl)

/-- The stored value at `(rr, o)`, over its eight operands: the four stretches added up, times the reciprocal standard
    deviation, minus `inv · mean` times the column sum of the scaled weights, plus the shift's product with the weights. -/
theorem store_apply (v5 v9 : FVec Ideal S4096x256 .bf16) (v29 v30 : FVec Ideal S4096x1 .f32) (v34 : FVec Ideal S1x512 .f32)
    (v36 v39 : FVec Ideal S256x512 .bf16) (cst : Ideal .bf16) (rr : Fin 4096) (o : Fin 256) :
    k0_pay1 (F := Ideal) v5 v9 v29 v30 v34 v36 v39 cst (ix2 rr o)
      = (((((∑ c : Fin 128, v5 (ix2 rr (h0 c)) * v39 (ix2 o (q0 c))) + (∑ c : Fin 128, v5 (ix2 rr (h1 c)) * v39 (ix2 o (q1 c))))
            + (∑ c : Fin 128, v9 (ix2 rr (h0 c)) * v39 (ix2 o (q2 c)))) + (∑ c : Fin 128, v9 (ix2 rr (h1 c)) * v39 (ix2 o (q3 c))))
          * v29 (ix2 rr (0 : Fin 1))
          - v30 (ix2 rr (0 : Fin 1)) * (∑ k : Fin 512, cst * v39 (ix2 o k)))
        + (∑ k : Fin 512, v34 (ix2 (0 : Fin 1) k) * v36 (ix2 o k)) := by
  unfold k0_pay1
  simp only [addf_apply, subf_apply, mulf_apply, broadcastTo_a1_ab_apply, broadcastTo_1b_ab_apply, onesDotWeights_apply, shiftDot_apply]
  rw [stretch_apply v5 v39 0 0 _ _ h0 q0 (fun c => (Nat.zero_add _).symm) (fun c => (Nat.zero_add _).symm) rr o,
    stretch_apply v5 v39 128 128 _ _ h1 q1 (fun _ => rfl) (fun _ => rfl) rr o,
    stretch_apply v9 v39 0 256 _ _ h0 q2 (fun c => (Nat.zero_add _).symm) (fun _ => rfl) rr o,
    stretch_apply v9 v39 128 384 _ _ h1 q3 (fun _ => rfl) (fun _ => rfl) rr o]

/-! ## The block -/

/-- Entry `(rr, o)` of the block the body writes is the folded arrangement of token `rr`'s LayerNorm and projection
    onto output channel `o`. -/
theorem block_apply (x0 : Vec Ideal S128x2x64x128 .f32) (x1 x2 : Vec Ideal S1x512 .f32) (x3 : Vec Ideal S256x512 .f32)
    (rr : Fin 4096) (o : Fin 256) :
    out0_4 (F := Ideal) x0 x1 x2 x3 (ix2 rr o)
      = rowK (pix x0 rr 0) (pix x0 rr 1) (fun k => x1 (ix2 (0 : Fin 1) k)) (fun k => x2 (ix2 (0 : Fin 1) k)) (fun k => x3 (ix2 o k)) := by
  have hz2 : (![0, 0] : Fin 2 → ℕ) = fun _ => 0 := by funext a; match a with | ⟨0, _⟩ => rfl | ⟨1, _⟩ => rfl
  have hz4 : (![0, 0, 0, 0] : Fin 4 → ℕ) = fun _ => 0 := by
    funext a; match a with | ⟨0, _⟩ => rfl | ⟨1, _⟩ => rfl | ⟨2, _⟩ => rfl | ⟨3, _⟩ => rfl
  unfold out0_4
  rw [View.canon_unit_zero hz2]
  simp only [View.ld_unit_zero (S := S128x2x64x128) hz4, View.ld_unit_zero (S := S1x512) hz2, View.ld_unit_zero (S := S256x512) hz2]
  rw [store_apply]
  simp only [evenHalf_apply, oddHalf_apply, invCol_apply, invMeanCol_apply, scaledWeights_apply, weights_apply, shift_eq]
  rfl

end Cert.KernelIdeal.RowValue

end
-- ==== Proof.KernelArray.lean ====
/-
  The kernel program's result array as one function of its four argument arrays.

  Around the one grid of 4 points the program reshapes the image batch `[16, 4096, 128]` to `[512, 2, 64, 128]` (512 row
  pairs, two image rows each) and the LayerNorm scale and shift `[512]` to rows `[1, 512]`; point `t` reads row pairs
  `128·t … 128·t + 127` and writes rows `4096·t … 4096·t + 4095` of a `[16384, 256]` matrix, which is finally reshaped to
  `[16, 1024, 256]`. Row `r = 4096·t + rr` of the matrix is merged token `r`: its half-rows, read off the block, are the
  entries `TokenNorm.half` names in the argument, so the matrix is `TokenNorm.outK` of the arguments — the blocks of the
  four points cover it.
-/
import proofs.«149109_g2000604256433566_pallasbulk_677_19_alg».proof.Proof.KernelRow
import Idealize.ShloMosaic.Lib.StableHlo.Run
import Idealize.ShloMosaic.Lib.Tactic

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RowValue Cert.TokenNorm

variable (m : (ℓ : Loc nD τ sig) → Buf (Elt Ideal) ℓ) (ρ : Dev nD → PrngReg)

/-! ## The arrays the region finds -/

/-- The image batch as 512 row pairs. -/
theorem V_pairs (c : Dev nD) : (V m c main_v0 : S512x2x64x128.Idx → EReal)
    = shapeCast S512x2x64x128 (m ((c : Thread nD τ).loc main_arg0) : S16x4096x128.Idx → EReal) Facts₀.shapeCasts_S16x4096x128_S512x2x64x128 := by
  show StableHlo.after hostOps0 (fun b => m (c, b)) (Proc.devRef .tc main_v0) = _
  after_results; rfl

/-- The LayerNorm scale as a row. -/
theorem V_scale (c : Dev nD) : (V m c main_v1 : S1x512.Idx → EReal)
    = shapeCast S1x512 (m ((c : Thread nD τ).loc main_arg1) : S512.Idx → EReal) Facts₀.shapeCasts_S512_S1x512 := by
  show StableHlo.after hostOps0 (fun b => m (c, b)) (Proc.devRef .tc main_v1) = _
  after_results; rfl

/-- The LayerNorm shift as a row. -/
theorem V_shift (c : Dev nD) : (V m c main_v2 : S1x512.Idx → EReal)
    = shapeCast S1x512 (m ((c : Thread nD τ).loc main_arg2) : S512.Idx → EReal) Facts₀.shapeCasts_S512_S1x512 := by
  show StableHlo.after hostOps0 (fun b => m (c, b)) (Proc.devRef .tc main_v2) = _
  after_results; rfl

/-! ## The blocks -/

/-- The index maps over the grid: the image block and the output block move with the point, the others stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 4 := by
  have h := t.isLt; have hN : cfg0.N = 4 := N_0; omega

/-- Block `t` of the row pairs: row pairs `128·t …`. -/
theorem pairs_blk_apply (c : Dev nD) (t : Fin cfg0.N) (a : Fin 128) (p : Fin 2) (col : Fin 64) (ch : Fin 128) :
    (iblk m c 0 t : Vec Ideal S128x2x64x128 .f32) (ix4 a p col ch)
      = (V m c main_v0 : S512x2x64x128.Idx → EReal) (ix4 (⟨128 * t.val + a.val, by have := point_lt t; omega⟩ : Fin 512) p col ch) := by
  obtain ⟨e0, e1, e2, e3, -⟩ := idx_facts t
  unfold iblk
  rw [View.read_apply]
  show V m c main_v0 _ = V m c main_v0 _
  refine congrArg _ ?_
  funext ax
  apply Fin.ext
  match ax with
  | ⟨0, _⟩ => show win0_0.index t (0 : Fin 4) * 128 + 1 * a.val = 128 * t.val + a.val; rw [e0]; omega
  | ⟨1, _⟩ => show win0_0.index t (1 : Fin 4) * 2 + 1 * p.val = p.val; rw [e1]; omega
  | ⟨2, _⟩ => show win0_0.index t (2 : Fin 4) * 64 + 1 * col.val = col.val; rw [e2]; omega
  | ⟨3, _⟩ => show win0_0.index t (3 : Fin 4) * 128 + 1 * ch.val = ch.val; rw [e3]; omega

/-- The scale's one block is the whole row. -/
theorem scale_blk_apply (c : Dev nD) (t : Fin cfg0.N) (u : Fin 1) (k : Fin 512) :
    (iblk m c 1 t : Vec Ideal S1x512 .f32) (ix2 u k) = (V m c main_v1 : S1x512.Idx → EReal) (ix2 u k) := by
  obtain ⟨-, -, -, -, e0, e1, -⟩ := idx_facts t
  unfold iblk
  rw [View.read_apply]
  show V m c main_v1 _ = V m c main_v1 _
  refine congrArg _ ?_
  funext ax
  apply Fin.ext
  match ax with
  | ⟨0, _⟩ => show win0_1.index t (0 : Fin 2) * 1 + 1 * u.val = u.val; rw [e0]; omega
  | ⟨1, _⟩ => show win0_1.index t (1 : Fin 2) * 512 + 1 * k.val = k.val; rw [e1]; omega

/-- The shift's one block is the whole row. -/
theorem shift_blk_apply (c : Dev nD) (t : Fin cfg0.N) (u : Fin 1) (k : Fin 512) :
    (iblk m c 2 t : Vec Ideal S1x512 .f32) (ix2 u k) = (V m c main_v2 : S1x512.Idx → EReal) (ix2 u k) := by
  obtain ⟨-, -, -, -, -, -, e0, e1, -⟩ := idx_facts t
  unfold iblk
  rw [View.read_apply]
  show V m c main_v2 _ = V m c main_v2 _
  refine congrArg _ ?_
  funext ax
  apply Fin.ext
  match ax with
  | ⟨0, _⟩ => show win0_2.index t (0 : Fin 2) * 1 + 1 * u.val = u.val; rw [e0]; omega
  | ⟨1, _⟩ => show win0_2.index t (1 : Fin 2) * 512 + 1 * k.val = k.val; rw [e1]; omega

/-- The weights' one block is the whole matrix. -/
theorem weights_blk_apply (c : Dev nD) (t : Fin cfg0.N) (o : Fin 256) (k : Fin 512) :
    (iblk m c 3 t : Vec Ideal S256x512 .f32) (ix2 o k) = (m ((c : Thread nD τ).loc main_arg3) : S256x512.Idx → EReal) (ix2 o k) := by
  obtain ⟨-, -, -, -, -, -, -, -, e0, e1, -⟩ := idx_facts t
  unfold iblk
  rw [View.read_apply]
  show V m c main_arg3 _ = _
  rw [V_main_arg3]
  refine congrArg _ ?_
  funext ax
  apply Fin.ext
  match ax with
  | ⟨0, _⟩ => show win0_3.index t (0 : Fin 2) * 256 + 1 * o.val = o.val; rw [e0]; omega
  | ⟨1, _⟩ => show win0_3.index t (1 : Fin 2) * 512 + 1 * k.val = k.val; rw [e1]; omega

/-! ## A block's tokens are the argument's merged tokens -/

/-- The arguments, named. -/
abbrev argX (c : Dev nD) : S16x4096x128.Idx → EReal := m ((c : Thread nD τ).loc main_arg0)
abbrev argG (c : Dev nD) : S512.Idx → EReal := m ((c : Thread nD τ).loc main_arg1)
abbrev argB (c : Dev nD) : S512.Idx → EReal := m ((c : Thread nD τ).loc main_arg2)
abbrev argW (c : Dev nD) : S256x512.Idx → EReal := m ((c : Thread nD τ).loc main_arg3)

/-- Lane `cc` of half-row `p` of block row `rr` at point `t` is that entry of merged token `4096·t + rr`: the row pair is
    `128·t + rr / 32`, and the reshape of the batch to row pairs keeps row-major positions. -/
theorem pix_blk (c : Dev nD) (t : Fin cfg0.N) (rr : Fin 4096) (r : Fin 16384) (hr : r.val = 4096 * t.val + rr.val)
    (p : Fin 2) (cc : Fin 256) :
    pix (iblk m c 0 t) rr p cc = half (argX m c) r p cc := by
  have ht := point_lt t
  show (iblk m c 0 t : Vec Ideal S128x2x64x128 .f32) (ix4 (⟨rr.val / 32, by omega⟩ : Fin 128) p
      (⟨2 * (rr.val % 32) + cc.val / 128, by omega⟩ : Fin 64) (⟨cc.val % 128, by omega⟩ : Fin 128)) = _
  rw [pairs_blk_apply, V_pairs]
  unfold half
  refine shapeCast_apply (s := S16x4096x128) (t := S512x2x64x128) _ _ _ _ ?_
  rw [Shape.rowMajor_val_three, Shape.rowMajor_val_four]
  show ((r.val / 1024) * 4096 + (r.val / 32 % 32 * 128 + p.val * 64 + 2 * (r.val % 32) + cc.val / 128)) * 128 + cc.val % 128
    = (((128 * t.val + rr.val / 32) * 2 + p.val) * 64 + (2 * (rr.val % 32) + cc.val / 128)) * 128 + cc.val % 128
  have hp := p.isLt
  omega

/-- The scale's block row is the scale. -/
theorem scale_blk (c : Dev nD) (t : Fin cfg0.N) (k : Fin 512) :
    (iblk m c 1 t : Vec Ideal S1x512 .f32) (ix2 (0 : Fin 1) k) = argG m c (ix1 k) := by
  rw [scale_blk_apply, V_scale]
  exact shapeCast_a_1a_apply _ _ _ _

/-- The shift's block row is the shift. -/
theorem shift_blk (c : Dev nD) (t : Fin cfg0.N) (k : Fin 512) :
    (iblk m c 2 t : Vec Ideal S1x512 .f32) (ix2 (0 : Fin 1) k) = argB m c (ix1 k) := by
  rw [shift_blk_apply, V_shift]
  exact shapeCast_a_1a_apply _ _ _ _

/-! ## What a point writes back, the cover, and the final matrix -/

/-- Entry `(rr, o)` of a written block, from what the four input blocks are entries of. -/
theorem block_of_reads (x0 : Vec Ideal S128x2x64x128 .f32) (x1 x2 : Vec Ideal S1x512 .f32) (x3 : Vec Ideal S256x512 .f32)
    (X : S16x4096x128.Idx → EReal) (g b : S512.Idx → EReal) (w : S256x512.Idx → EReal) (r : Fin 16384) (rr : Fin 4096) (o : Fin 256)
    (h0 : ∀ p cc, pix x0 rr p cc = half X r p cc) (h1 : ∀ k, x1 (ix2 (0 : Fin 1) k) = g (ix1 k))
    (h2 : ∀ k, x2 (ix2 (0 : Fin 1) k) = b (ix1 k)) (h3 : ∀ k, x3 (ix2 o k) = w (ix2 o k)) :
    out0_4 (F := Ideal) x0 x1 x2 x3 (ix2 rr o) = outK X g b w (ix2 r o) := by
  rw [block_apply]
  show _ = rowK (half X r 0) (half X r 1) (fun k => g (ix1 k)) (fun k => b (ix1 k)) (fun k => w (ix2 o k))
  rw [show pix x0 rr 0 = half X r 0 from funext (h0 0), show pix x0 rr 1 = half X r 1 from funext (h0 1),
    show (fun k => x1 (ix2 (0 : Fin 1) k)) = fun k => g (ix1 k) from funext h1,
    show (fun k => x2 (ix2 (0 : Fin 1) k)) = fun k => b (ix1 k) from funext h2,
    show (fun k => x3 (ix2 o k)) = fun k => w (ix2 o k) from funext h3]

/-- WHAT POINT `t` WRITES BACK is block `t` of the folded arrangement of the arguments' merged tokens. -/
theorem flushed_eq (c : Dev nD) (t : Fin cfg0.N) :
    (dats m 0 c).flushed 4 t = ((cfg0.win 4).blk t).view.read (Elt Ideal) (outK (argX m c) (argG m c) (argB m c) (argW m c)) := by
  have ht := point_lt t
  obtain ⟨-, -, -, -, -, -, -, -, -, -, e0, e1⟩ := idx_facts t
  show (cfg0.win 4).cut (grid0.coords t) ((dats m 0 c).after 4 t) = _
  rw [after0_4]
  funext j
  obtain ⟨rr, o, rfl⟩ : ∃ (rr : Fin 4096) (o : Fin 256), j = ix2 rr o := ⟨j 0, j 1, eq_ix2 j⟩
  rw [View.read_apply]
  have hemb : ((cfg0.win 4).blk t).view.emb (ix2 rr o) = ix2 (⟨4096 * t.val + rr.val, by omega⟩ : Fin 16384) o := by
    funext ax
    apply Fin.ext
    match ax with
    | ⟨0, _⟩ => show win0_4.index t (0 : Fin 2) * 4096 + 1 * rr.val = 4096 * t.val + rr.val; rw [e0]; omega
    | ⟨1, _⟩ => show win0_4.index t (1 : Fin 2) * 256 + 1 * o.val = o.val; rw [e1]; omega
  rw [hemb]
  exact block_of_reads (iblk m c 0 t) (iblk m c 1 t) (iblk m c 2 t) (iblk m c 3 t) (argX m c) (argG m c) (argB m c) (argW m c)
    (⟨4096 * t.val + rr.val, by omega⟩ : Fin 16384) rr o
    (fun p cc => pix_blk m c t rr _ rfl p cc) (fun k => scale_blk m c t k) (fun k => shift_blk m c t k)
    (fun k => weights_blk_apply m c t o k)

/-- An index of the matrix is in point `t`'s block iff each coordinate is in the block's range on its axis. -/
theorem mem_blk (t : Fin cfg0.N) (i : S16384x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v3).slice (win0_4.rect t)).set ↔ _
  rw [View.set_slice_whole, Rect.mem_set_unit]
  exact Iff.rfl

/-- Row `r` of the matrix is in the block of point `r / 4096`. -/
theorem cover (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 4 := N_0
  let t : Fin cfg0.N := ⟨(i 0).val / 4096, by omega⟩
  obtain ⟨-, -, -, -, -, -, -, -, -, -, e0, e1⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e0]; show (i 0).val / 4096 * 4096 ≤ (i 0).val ∧ (i 0).val < (i 0).val / 4096 * 4096 + 4096; omega
  | ⟨1, _⟩ =>
    show win0_4.index t (1 : Fin 2) * 256 ≤ (i 1).val ∧ (i 1).val < win0_4.index t (1 : Fin 2) * 256 + 256
    rw [e1]; omega

/-- THE MATRIX after the region: the folded arrangement of every merged token of the arguments. -/
theorem final (c : Dev nD) : (dats m 0 c).arrAt 4 cfg0.N = outK (argX m c) (argG m c) (argB m c) (argW m c) :=
  (dats m 0 c).arrAt_eq_of_cover 4 _ (fun t _ => flushed_eq m c t) cover

/-! ## The reshape after the region, and the run -/

/-- The result: the matrix viewed `[16, 1024, 256]`. -/
theorem tail_result (c : Dev nD) :
    Pipeline.afterTail₀ cfgs (dats m) 0 (V0 m) [hostOps1] c main_v4
      = shapeCast S16x1024x256 (outK (argX m c) (argG m c) (argB m c) (argW m c)) Facts₀.shapeCasts_S16384x256_S16x1024x256 := by
  unfold Pipeline.afterTail₀
  show StableHlo.after hostOps1 _ (Proc.devRef .tc main_v4) = _
  after_results
  rw [(Pipeline.withArrays_arr spec0 launch0.win.arr_inj c _ _ 4).trans (final m c)]
  rfl

/-- The run, read: the result array at the reshaped matrix, the arguments unchanged. -/
theorem run : θ_run defs (onTc (τ := τ) (main (F := Ideal))) ⟨m, fun _ => 0, ρ⟩ (fun r => ∀ c : Dev nD,
      r.2.mem ((c.tc : Thread nD τ).loc main_v4)
        = shapeCast S16x1024x256 (outK (argX m c) (argG m c) (argB m c) (argW m c)) Facts₀.shapeCasts_S16384x256_S16x1024x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c)))⟩)
    (run_main m ρ)

end Cert.KernelIdeal.ArrayValue

end
-- ==== Proof.NormAlgebra.lean ====
/-
  The folded and the textbook arrangement of LayerNorm(512) followed by a projection agree on real inputs.

  Write the 512 entries of a token as `x`, its mean as `μ = (Σ x) / 512`, and let `e > 0` be the value of `eps`.

  * The two means are the same number: the folded one multiplies every entry by `one = 1` first.
  * `Σ (x − μ)² = Σ x² − 2 μ Σ x + 512 μ²`, and `Σ x = 512 μ`, so `(Σ (x − μ)²) / 512 = (Σ x²) / 512 − μ²`: both
    arrangements hand the same real to the reciprocal square root. That real is a mean of squares plus `e`, so it
    is positive, and the reciprocal square root of a positive real is the real `(√v)⁻¹`; call it `I`.
  * With every quantity a real, `((x − μ) · I · g + b) · w = I · (x · (w · g)) − (I · μ) · (w · g) + b · w` termwise;
    summing over the 512 channels, cut as 256 + 256 on one side and as 128 + 128 + 128 + 128 and 512 on the
    other, gives the folded expression.

  Finiteness is what lets the products distribute: over the extended reals they do not in general. So each
  quantity is first shown to be the coercion of a real one (`mu`, `varK`, `varR`, `dotReal`), and the identity is
  then an identity of real numbers.
-/
import proofs.«149109_g2000604256433566_pallasbulk_677_19_alg».proof.Proof.TokenNorm

noncomputable section

namespace Cert.TokenNorm

open Idealize.ShloMosaic

/-! ## The three constants -/

/-- The bfloat16 pattern `0x3F80`: exponent field 127, significand 0, that is `2^7 · 2^(-7) = 1`. -/
theorem one_eq : one = 1 := by
  simp [one, Ideal.ofBits, Ideal.ieee, -EReal.coe_mul]; norm_num

/-- The float32 pattern `0x3B000000`: exponent field 118, significand 0, that is `2^23 · 2^(-32) = 1/512`. -/
theorem invN_eq : invN = (((1 : ℝ) / 512 : ℝ) : EReal) := by
  simp [invN, Ideal.ofBits, Ideal.ieee, -EReal.coe_mul]; norm_num

/-- The float32 pattern `0x3727C5AC`: exponent field 110, significand `2606508`, that is
    `(2^23 + 2606508) · 2^(-40)`, a positive real. -/
theorem eps_eq : ∃ e : ℝ, 0 < e ∧ eps = (e : EReal) := by
  refine ⟨10995116 * (2 ^ 40)⁻¹, by positivity, ?_⟩
  simp [eps, Ideal.ofBits, Ideal.ieee, -EReal.coe_mul]

/-! ## Sums of reals inside the extended reals -/

/-- A finite sum of coerced reals is the coercion of the sum. -/
theorem coe_sum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-! ## The real quantities -/

/-- The mean of the 512 reals. -/
def mu (r0 r1 : Fin 256 → ℝ) : ℝ := ((∑ c, r0 c) + ∑ c, r1 c) * (1 / 512)

/-- The mean of the squares minus the square of the mean. -/
def varK (r0 r1 : Fin 256 → ℝ) : ℝ :=
  ((∑ c, r0 c * r0 c) + ∑ c, r1 c * r1 c) * (1 / 512) - mu r0 r1 * mu r0 r1

/-- The mean of the squared centred values. -/
def varR (r0 r1 : Fin 256 → ℝ) : ℝ :=
  ((∑ c, (r0 c - mu r0 r1) * (r0 c - mu r0 r1)) + ∑ c, (r1 c - mu r0 r1) * (r1 c - mu r0 r1)) * (1 / 512)

/-- The token's product with the scaled weights, in four stretches of 128 channels. -/
def dotReal (r0 r1 : Fin 256 → ℝ) (g w : Fin 512 → ℝ) : ℝ :=
  (((∑ c : Fin 128, r0 (h0 c) * (w (q0 c) * g (q0 c))) + (∑ c : Fin 128, r0 (h1 c) * (w (q1 c) * g (q1 c))))
    + (∑ c : Fin 128, r1 (h0 c) * (w (q2 c) * g (q2 c)))) + (∑ c : Fin 128, r1 (h1 c) * (w (q3 c) * g (q3 c)))

/-! ## The variance, two ways -/

/-- `Σ (x − m)² = Σ x² − 2 m Σ x + 256 m²` over 256 terms. -/
theorem sum_centred (x : Fin 256 → ℝ) (m : ℝ) :
    ∑ c, (x c - m) * (x c - m) = (∑ c, x c * x c) - 2 * m * (∑ c, x c) + 256 * (m * m) := by
  have hterm : ∀ c, (x c - m) * (x c - m) = x c * x c - 2 * m * x c + m * m := fun c => by ring
  simp only [hterm, Finset.sum_add_distrib, Finset.sum_sub_distrib, ← Finset.mul_sum, Finset.sum_const,
    Finset.card_univ, Fintype.card_fin, nsmul_eq_mul]
  push_cast
  ring

/-- `(Σ x²)/512 − μ² = (Σ (x − μ)²)/512`, because `Σ x = 512 μ`. -/
theorem varK_eq_varR (r0 r1 : Fin 256 → ℝ) : varK r0 r1 = varR r0 r1 := by
  unfold varK varR
  rw [sum_centred, sum_centred]
  unfold mu
  ring

/-- A mean of squares is not negative. -/
theorem varR_nonneg (r0 r1 : Fin 256 → ℝ) : 0 ≤ varR r0 r1 :=
  mul_nonneg
    (add_nonneg (Finset.sum_nonneg fun _ _ => mul_self_nonneg _) (Finset.sum_nonneg fun _ _ => mul_self_nonneg _))
    (by norm_num)

/-! ## Each extended-real quantity is the coercion of its real one -/

theorem meanK_coe (r0 r1 : Fin 256 → ℝ) :
    meanK (fun c => (r0 c : EReal)) (fun c => (r1 c : EReal)) = ((mu r0 r1 : ℝ) : EReal) := by
  unfold meanK mu
  rw [one_eq, invN_eq]
  simp only [one_mul, coe_sum, ← EReal.coe_add, ← EReal.coe_mul]

theorem meanR_coe (r0 r1 : Fin 256 → ℝ) :
    meanR (fun c => (r0 c : EReal)) (fun c => (r1 c : EReal)) = ((mu r0 r1 : ℝ) : EReal) := by
  unfold meanR mu
  rw [invN_eq]
  simp only [coe_sum, ← EReal.coe_add, ← EReal.coe_mul]

/-- The reciprocal square root of a positive real is the real `(√v)⁻¹`. -/
theorem rsqrt_pos (v : ℝ) (hv : 0 < v) : Ideal.rsqrt (v : EReal) = (((Real.sqrt v)⁻¹ : ℝ) : EReal) := by
  rw [Ideal.rsqrt_coe, if_neg (not_lt.2 hv.le), if_neg hv.ne']

theorem invK_coe (r0 r1 : Fin 256 → ℝ) (e : ℝ) (heps : eps = (e : EReal)) (hpos : 0 < varK r0 r1 + e) :
    invK (fun c => (r0 c : EReal)) (fun c => (r1 c : EReal))
      = (((Real.sqrt (varK r0 r1 + e))⁻¹ : ℝ) : EReal) := by
  unfold invK
  rw [meanK_coe, one_eq, invN_eq, heps]
  simp only [one_mul, coe_sum, ← EReal.coe_add, ← EReal.coe_mul, ← EReal.coe_sub]
  exact rsqrt_pos _ hpos

theorem invR_coe (r0 r1 : Fin 256 → ℝ) (e : ℝ) (heps : eps = (e : EReal)) (hpos : 0 < varR r0 r1 + e) :
    invR (fun c => (r0 c : EReal)) (fun c => (r1 c : EReal))
      = (((Real.sqrt (varR r0 r1 + e))⁻¹ : ℝ) : EReal) := by
  unfold invR
  rw [meanR_coe, invN_eq, heps]
  simp only [coe_sum, ← EReal.coe_add, ← EReal.coe_mul, ← EReal.coe_sub]
  exact rsqrt_pos _ hpos

theorem dotK_coe (r0 r1 : Fin 256 → ℝ) (g w : Fin 512 → ℝ) :
    dotK (fun c => (r0 c : EReal)) (fun c => (r1 c : EReal)) (fun k => (g k : EReal)) (fun k => (w k : EReal))
      = ((dotReal r0 r1 g w : ℝ) : EReal) := by
  unfold dotK dotReal
  simp only [coe_sum, ← EReal.coe_add, ← EReal.coe_mul]

theorem rowK_coe (r0 r1 : Fin 256 → ℝ) (g b w : Fin 512 → ℝ) (e : ℝ) (heps : eps = (e : EReal))
    (hpos : 0 < varK r0 r1 + e) :
    rowK (fun c => (r0 c : EReal)) (fun c => (r1 c : EReal)) (fun k => (g k : EReal)) (fun k => (b k : EReal))
        (fun k => (w k : EReal))
      = (((dotReal r0 r1 g w * (Real.sqrt (varK r0 r1 + e))⁻¹
            - ((Real.sqrt (varK r0 r1 + e))⁻¹ * mu r0 r1) * ∑ k, w k * g k) + ∑ k, b k * w k : ℝ) : EReal) := by
  unfold rowK
  rw [dotK_coe, invK_coe r0 r1 e heps hpos, meanK_coe, one_eq]
  simp only [one_mul, coe_sum, ← EReal.coe_add, ← EReal.coe_mul, ← EReal.coe_sub]

theorem rowR_coe (r0 r1 : Fin 256 → ℝ) (g b w : Fin 512 → ℝ) (e : ℝ) (heps : eps = (e : EReal))
    (hpos : 0 < varR r0 r1 + e) :
    rowR (fun c => (r0 c : EReal)) (fun c => (r1 c : EReal)) (fun k => (g k : EReal)) (fun k => (b k : EReal))
        (fun k => (w k : EReal))
      = (((∑ c, ((r0 c - mu r0 r1) * (Real.sqrt (varR r0 r1 + e))⁻¹ * g (lo c) + b (lo c)) * w (lo c))
          + ∑ c, ((r1 c - mu r0 r1) * (Real.sqrt (varR r0 r1 + e))⁻¹ * g (up c) + b (up c)) * w (up c) : ℝ) : EReal) := by
  unfold rowR
  rw [meanR_coe, invR_coe r0 r1 e heps hpos]
  simp only [coe_sum, ← EReal.coe_add, ← EReal.coe_mul, ← EReal.coe_sub]

/-! ## Cutting the sums -/

/-- 512 channels as 256 + 256. -/
theorem sum_split_512 (f : Fin 512 → ℝ) : ∑ k, f k = (∑ c : Fin 256, f (lo c)) + ∑ c : Fin 256, f (up c) :=
  Fin.sum_univ_add (a := 256) (b := 256) f

/-- 256 channels as 128 + 128. -/
theorem sum_split_256 (f : Fin 256 → ℝ) : ∑ c, f c = (∑ c : Fin 128, f (h0 c)) + ∑ c : Fin 128, f (h1 c) :=
  Fin.sum_univ_add (a := 128) (b := 128) f

/-- The fourth stretch of 128 is the second half of the second half-row. -/
theorem up_h1 (c : Fin 128) : up (h1 c) = q3 c := Fin.ext (by show 256 + (128 + c.val) = 384 + c.val; omega)

/-- The four stretches of 128 make the two half-rows. -/
theorem dotReal_eq (r0 r1 : Fin 256 → ℝ) (g w : Fin 512 → ℝ) :
    dotReal r0 r1 g w
      = (∑ c : Fin 256, r0 c * (w (lo c) * g (lo c))) + ∑ c : Fin 256, r1 c * (w (up c) * g (up c)) := by
  have e3 : (∑ c : Fin 128, r1 (h1 c) * (w (q3 c) * g (q3 c)))
      = ∑ c : Fin 128, r1 (h1 c) * (w (up (h1 c)) * g (up (h1 c))) :=
    Finset.sum_congr rfl (fun c _ => by rw [up_h1])
  unfold dotReal
  rw [e3, sum_split_256 (fun c => r0 c * (w (lo c) * g (lo c))), sum_split_256 (fun c => r1 c * (w (up c) * g (up c)))]
  exact add_assoc _ _ _

/-- One half-row of the textbook sum, distributed. -/
theorem half_sum (x G B W : Fin 256 → ℝ) (m I : ℝ) :
    ∑ c, ((x c - m) * I * G c + B c) * W c
      = I * (∑ c, x c * (W c * G c)) - (I * m) * (∑ c, W c * G c) + ∑ c, B c * W c := by
  simp only [Finset.mul_sum, ← Finset.sum_sub_distrib, ← Finset.sum_add_distrib]
  exact Finset.sum_congr rfl (fun c _ => by ring)

/-- The two arrangements as real numbers. -/
theorem row_real (x0 x1 : Fin 256 → ℝ) (g b w : Fin 512 → ℝ) (m I : ℝ) :
    (dotReal x0 x1 g w * I - (I * m) * ∑ k, w k * g k) + ∑ k, b k * w k
      = (∑ c, ((x0 c - m) * I * g (lo c) + b (lo c)) * w (lo c))
          + ∑ c, ((x1 c - m) * I * g (up c) + b (up c)) * w (up c) := by
  have e0 := half_sum x0 (fun c => g (lo c)) (fun c => b (lo c)) (fun c => w (lo c)) m I
  have e1 := half_sum x1 (fun c => g (up c)) (fun c => b (up c)) (fun c => w (up c)) m I
  beta_reduce at e0 e1
  rw [e0, e1, dotReal_eq, sum_split_512 (fun k => w k * g k), sum_split_512 (fun k => b k * w k)]
  ring

/-! ## The two arrangements agree -/

/-- On real inputs one output entry is the same in the folded and in the textbook arrangement. -/
theorem rowK_eq_rowR (t0 t1 : Fin 256 → EReal) (g b wrow : Fin 512 → EReal)
    (h0 : ∀ c, ∃ r : ℝ, t0 c = (r : EReal)) (h1 : ∀ c, ∃ r : ℝ, t1 c = (r : EReal))
    (hg : ∀ k, ∃ r : ℝ, g k = (r : EReal)) (hb : ∀ k, ∃ r : ℝ, b k = (r : EReal))
    (hw : ∀ k, ∃ r : ℝ, wrow k = (r : EReal)) :
    rowK t0 t1 g b wrow = rowR t0 t1 g b wrow := by
  choose r0 hr0 using h0
  choose r1 hr1 using h1
  choose gr hgr using hg
  choose br hbr using hb
  choose wr hwr using hw
  obtain rfl : t0 = fun c => (r0 c : EReal) := funext hr0
  obtain rfl : t1 = fun c => (r1 c : EReal) := funext hr1
  obtain rfl : g = fun k => (gr k : EReal) := funext hgr
  obtain rfl : b = fun k => (br k : EReal) := funext hbr
  obtain rfl : wrow = fun k => (wr k : EReal) := funext hwr
  obtain ⟨e, he, heps⟩ := eps_eq
  have hv : varK r0 r1 = varR r0 r1 := varK_eq_varR r0 r1
  have hposR : 0 < varR r0 r1 + e := add_pos_of_nonneg_of_pos (varR_nonneg r0 r1) he
  have hposK : 0 < varK r0 r1 + e := hv ▸ hposR
  rw [rowK_coe r0 r1 gr br wr e heps hposK, rowR_coe r0 r1 gr br wr e heps hposR, hv, row_real]

/-- On real inputs the whole result is the same in the folded and in the textbook arrangement. -/
theorem outK_eq_outR (x : (⟨3, ![16, 4096, 128]⟩ : Shape).Idx → EReal) (g b : (⟨1, ![512]⟩ : Shape).Idx → EReal)
    (w : (⟨2, ![256, 512]⟩ : Shape).Idx → EReal)
    (hx : ∀ i, ∃ r : ℝ, x i = (r : EReal)) (hg : ∀ i, ∃ r : ℝ, g i = (r : EReal))
    (hb : ∀ i, ∃ r : ℝ, b i = (r : EReal)) (hw : ∀ i, ∃ r : ℝ, w i = (r : EReal)) :
    outK x g b w = outR x g b w := by
  funext j
  unfold outK outR
  exact rowK_eq_rowR _ _ _ _ _ (fun _ => hx _) (fun _ => hx _) (fun _ => hg _) (fun _ => hb _) (fun _ => hw _)

end Cert.TokenNorm

end
-- ==== Proof.FiniteInputs.lean ====
/-
  Finiteness of the four argument arrays.

  The stated precondition is the conjunction, over the four arrays, of "every entry has absolute value below
  +∞". Over the extended reals the absolute value is `max x (-x)`, and it is below `⊤` exactly when `x` is
  neither `⊤` nor `⊥`, that is, when `x` is a real number. This module reads the precondition back into
  that statement, entry by entry.
-/
import proofs.«149109_g2000604256433566_pallasbulk_677_19_alg».proof.Pre_finite_inputs
import proofs.«149109_g2000604256433566_pallasbulk_677_19_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The rank-0 shape has a single index. -/
instance : Subsingleton S_.Idx := ⟨fun a b => funext fun d => d.elim0⟩

/-- The float32 pattern `0x7F800000` denotes `+∞`. -/
theorem inf_eq_top : Ideal.ofBits .f32 0x7F800000#32 = (⊤ : EReal) := by
  simp [Ideal.ofBits, Ideal.ieee]

/-- An extended real whose absolute value `max x (-x)` is below `⊤` is a real: `x = ⊤` gives
    `max ⊤ ⊥ = ⊤` and `x = ⊥` gives `max ⊥ ⊤ = ⊤`, neither below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞`, when it answers 1, says that `x` is a real. -/
theorem real_of_cmp (x : EReal)
    (h : Ideal.cmp .olt (max x (-x)) (Ideal.ofBits .f32 0x7F800000#32) = 1#1) : ∃ r : ℝ, x = (r : EReal) := by
  rw [inf_eq_top] at h
  refine real_of_abs_lt_top x ?_
  by_contra hn
  simp [Ideal.cmp, hn] at h

/-- Under the precondition every entry of each of the four arrays is a real number. -/
theorem entries_real [Facts] (a0 : FVec Ideal S16x4096x128 .f32) (a1 a2 : FVec Ideal S512 .f32)
    (a3 : FVec Ideal S256x512 .f32) (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h' := congrFun h ValueIdx.ix0
  dsimp only [fn, fn_part1] at h'
  -- the four conjuncts: the predicate is `((p₀ ∧ p₁) ∧ p₂) ∧ p₃`, each `pₖ` an "all entries" over one array
  obtain ⟨h012, e3⟩ := IntOp.andi_eq_one.1 h'
  obtain ⟨h01, e2⟩ := IntOp.andi_eq_one.1 h012
  obtain ⟨e0, e1⟩ := IntOp.andi_eq_one.1 h01
  refine ⟨fun i => ?_, fun i => ?_, fun i => ?_, fun i => ?_⟩
  · exact real_of_cmp (a0 i) (Host.reduce_andi_all _ _ _ _ ValueIdx.ix0 e0 i)
  · exact real_of_cmp (a1 i) (Host.reduce_andi_all _ _ _ _ ValueIdx.ix0 e1 i)
  · exact real_of_cmp (a2 i) (Host.reduce_andi_all _ _ _ _ ValueIdx.ix0 e2 i)
  · exact real_of_cmp (a3 i) (Host.reduce_andi_all _ _ _ _ ValueIdx.ix0 e3 i)

end Cert.FiniteInputs

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.RefRow.lean ====
/-
  One entry of the block the reference body writes, as the textbook LayerNorm + projection of one merged token.

  The body receives a block `x0 : [32, 2, 32, 256]` of the regrouped image batch (32 row pairs; axis 1 is the even or
  the odd image row of the pair; 32 column pairs, each 256 numbers: two neighbouring pixels of 128 channels side by
  side), the LayerNorm scale `x1` and shift `x2` as `[2, 256]` (row `p` holds the 256 merged channels of half-row `p`),
  and the transposed projection matrix `x3 : [2, 256, 256]` (`x3[p, c, o]` is the weight of channel `c` of half-row `p`
  on output channel `o`), and writes a `[1024, 256]` block: row `rr` is the merged token of row pair `rr / 32` and
  column pair `rr % 32`. Each half of the block is recast from `[32, 1, 32, 256]` to `[1024, 256]`, so row `rr` of
  half `p` is `x0[rr / 32, p, rr % 32, ·]`. The body then follows the textbook: the mean of the 512 numbers (two
  row sums added, times 1/512), the centred values, the variance of the centred values plus epsilon, its reciprocal
  square root, scale and shift per half, and the projection as two products over 256 channels added up. Read at one
  entry `(rr, o)` this is `TokenNorm.rowR` of the token's two half-rows, the scale, the shift and column `o` of
  the weights.
-/
import proofs.«149109_g2000604256433566_pallasbulk_677_19_alg».proof.Proof.Gen.ReferenceIdeal.Frame
import proofs.«149109_g2000604256433566_pallasbulk_677_19_alg».proof.Proof.TokenNorm
import proofs.«149109_g2000604256433566_pallasbulk_677_19_alg».proof.Proof.LibColumnCast
import proofs.«149109_g2000604256433566_pallasbulk_677_19_alg».proof.Proof.LibColumnBroadcast
import proofs.«149109_g2000604256433566_pallasbulk_677_19_alg».proof.Proof.LibFlattenCasts
import proofs.«149109_g2000604256433566_pallasbulk_677_19_alg».proof.Proof.LibLaneSum
import proofs.«149109_g2000604256433566_pallasbulk_677_19_alg».proof.Proof.LibPlainMatmul
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Gen Cert.TokenNorm

/-! ## The two half-rows of a token, read off the block -/

/-- Channel `c` of half-row `p` of the token at block row `rr`. -/
abbrev tok (x0 : Vec Ideal S32x2x32x256 .f32) (rr : Fin 1024) (p : Fin 2) (c : Fin 256) : EReal :=
  x0 (ix4 (⟨rr.val / 32, by omega⟩ : Fin 32) p (⟨rr.val % 32, by omega⟩ : Fin 32) c)

/-- Half `p` of the block (the slice at offset `off = p` on axis 1) recast to `[1024, 256]`. -/
theorem half_apply (x0 : Vec Ideal S32x2x32x256 .f32) (off : ℕ) (h : S32x2x32x256.Slices ![0, off, 0, 0] S32x1x32x256)
    (p : Fin 2) (hp : p.val = off) (rr : Fin 1024) (c : Fin 256) :
    shapeCast S1024x256 (shapeCast S32x32x256 (extractStridedSlice S32x1x32x256 ![0, off, 0, 0] x0 h)
      shapeCasts_S32x1x32x256_S32x32x256) shapeCasts_S32x32x256_S1024x256 (ix2 rr c) = tok x0 rr p c := by
  refine (shapeCast_abc_nc_apply _ _ (⟨rr.val / 32, by omega⟩ : Fin 32) (⟨rr.val % 32, by omega⟩ : Fin 32) c rr ?_).trans ?_
  · show rr.val = rr.val / 32 * 32 + rr.val % 32
    omega
  refine (shapeCast_apply _ _ (ix3 (⟨rr.val / 32, by omega⟩ : Fin 32) (⟨rr.val % 32, by omega⟩ : Fin 32) c)
      (ix4 (⟨rr.val / 32, by omega⟩ : Fin 32) (0 : Fin 1) (⟨rr.val % 32, by omega⟩ : Fin 32) c) ?_).trans ?_
  · rw [Shape.rowMajor_val_four, Shape.rowMajor_val_three]
    show ((rr.val / 32 * 1 + 0) * 32 + rr.val % 32) * 256 + c.val = (rr.val / 32 * 32 + rr.val % 32) * 256 + c.val
    omega
  exact slice4_axis1_apply off _ _ _ (0 : Fin 1) _ _ p (by omega)

/-- The even image rows recast to `[1024, 256]`. -/
theorem evenHalf_apply (x0 : Vec Ideal S32x2x32x256 .f32) (rr : Fin 1024) (c : Fin 256) :
    k0_pay3 (F := Ideal) x0 (ix2 rr c) = tok x0 rr 0 c := by
  unfold k0_pay3 k0_pay2
  rw [shapeCast_self]
  exact half_apply x0 0 _ 0 rfl rr c

/-- The odd image rows recast to `[1024, 256]`. -/
theorem oddHalf_apply (x0 : Vec Ideal S32x2x32x256 .f32) (rr : Fin 1024) (c : Fin 256) :
    k0_pay4 (F := Ideal) x0 (ix2 rr c) = tok x0 rr 1 c := by
  unfold k0_pay4 k0_pay2
  rw [shapeCast_self]
  exact half_apply x0 1 _ 1 rfl rr c

/-! ## Mean and reciprocal standard deviation -/

/-- The mean of the token at block row `rr`: the two row sums added, times 1/512. -/
theorem mean_apply (x0 : Vec Ideal S32x2x32x256 .f32) (rr : Fin 1024) (u : Fin 1) :
    k0_pay5 (F := Ideal) x0 (ix2 rr u) = meanR (tok x0 rr 0) (tok x0 rr 1) := by
  unfold k0_pay5 meanR
  simp only [mulf_apply, addf_apply, broadcast_apply, shapeCast_a_a1_apply]
  refine congrArg₂ (fun a b : EReal => (a + b) * invN) ?_ ?_
  · exact (multiReduction_add_rows_apply (k0_pay3 (F := Ideal) x0) _ _ _ _ rr).trans
      (Finset.sum_congr rfl fun c _ => evenHalf_apply x0 rr c)
  · exact (multiReduction_add_rows_apply (k0_pay4 (F := Ideal) x0) _ _ _ _ rr).trans
      (Finset.sum_congr rfl fun c _ => oddHalf_apply x0 rr c)

/-- The centred even half. -/
theorem evenCentred_apply (x0 : Vec Ideal S32x2x32x256 .f32) (rr : Fin 1024) (c : Fin 256) :
    k0_pay6 (F := Ideal) x0 (ix2 rr c) = tok x0 rr 0 c - meanR (tok x0 rr 0) (tok x0 rr 1) := by
  unfold k0_pay6
  simp only [subf_apply, broadcastTo_a1_ab_apply, evenHalf_apply, mean_apply]

/-- The centred odd half. -/
theorem oddCentred_apply (x0 : Vec Ideal S32x2x32x256 .f32) (rr : Fin 1024) (c : Fin 256) :
    k0_pay7 (F := Ideal) x0 (ix2 rr c) = tok x0 rr 1 c - meanR (tok x0 rr 0) (tok x0 rr 1) := by
  unfold k0_pay7
  simp only [subf_apply, broadcastTo_a1_ab_apply, oddHalf_apply, mean_apply]

/-- The reciprocal standard deviation of the token at block row `rr`. -/
theorem inv_apply (x0 : Vec Ideal S32x2x32x256 .f32) (rr : Fin 1024) (u : Fin 1) :
    k0_pay8 (F := Ideal) x0 (ix2 rr u) = invR (tok x0 rr 0) (tok x0 rr 1) := by
  unfold k0_pay8 invR
  simp only [rsqrt, mulf_apply, addf_apply, broadcast_apply, shapeCast_a_a1_apply]
  refine congrArg₂ (fun a b : EReal => Ideal.rsqrt ((a + b) * invN + eps)) ?_ ?_
  · exact (multiReduction_add_rows_apply (mulf (k0_pay6 (F := Ideal) x0) (k0_pay6 (F := Ideal) x0)) _ _ _ _ rr).trans
      (Finset.sum_congr rfl fun c _ => by rw [mulf_apply, evenCentred_apply])
  · exact (multiReduction_add_rows_apply (mulf (k0_pay7 (F := Ideal) x0) (k0_pay7 (F := Ideal) x0)) _ _ _ _ rr).trans
      (Finset.sum_congr rfl fun c _ => by rw [mulf_apply, oddCentred_apply])

/-- The reciprocal standard deviation broadcast along the row. -/
theorem invRow_apply (x0 : Vec Ideal S32x2x32x256 .f32) (rr : Fin 1024) (c : Fin 256) :
    k0_pay12 (F := Ideal) x0 (ix2 rr c) = invR (tok x0 rr 0) (tok x0 rr 1) := by
  unfold k0_pay12
  simp only [broadcastTo_a1_ab_apply, inv_apply]

/-! ## Scale, shift and weights -/

theorem scale_eq (x1 : Vec Ideal S2x256 .f32) : k0_pay9 (F := Ideal) x1 = x1 := by
  unfold k0_pay9; exact shapeCast_self _ _

theorem shift_eq (x2 : Vec Ideal S2x256 .f32) : k0_pay10 (F := Ideal) x2 = x2 := by
  unfold k0_pay10; exact shapeCast_self _ _

/-- Row `p` of a `[2, 256]` array (the slice at offset `off = p`), broadcast over the 1024 block rows. -/
theorem rowOf_apply (v : FVec Ideal S2x256 .f32) (off : ℕ) (h : S2x256.Slices ![off, 0] S1x256) (p : Fin 2) (hp : p.val = off)
    (rr : Fin 1024) (c : Fin 256) :
    broadcastTo S1024x256 (extractStridedSlice S1x256 ![off, 0] v h) broadcasts_S1x256_S1024x256 (ix2 rr c) = v (ix2 p c) :=
  (broadcastTo_1b_ab_apply _ _ rr c).trans (slice2_axis0_apply off v h (0 : Fin 1) c p (by omega))

/-- The normalised, scaled and shifted even half. -/
theorem evenNormed_apply (x0 : Vec Ideal S32x2x32x256 .f32) (x1 x2 : Vec Ideal S2x256 .f32) (rr : Fin 1024) (c : Fin 256) :
    k0_pay11 (F := Ideal) x0 x1 x2 (ix2 rr c)
      = (tok x0 rr 0 c - meanR (tok x0 rr 0) (tok x0 rr 1)) * invR (tok x0 rr 0) (tok x0 rr 1) * x1 (ix2 (0 : Fin 2) c)
        + x2 (ix2 (0 : Fin 2) c) := by
  unfold k0_pay11
  simp only [addf_apply, mulf_apply, broadcastTo_a1_ab_apply, scale_eq, shift_eq, evenCentred_apply, inv_apply]
  rw [rowOf_apply x1 0 _ 0 rfl rr c, rowOf_apply x2 0 _ 0 rfl rr c]

/-- Half `p` of the weights (the slice at offset `off = p` on axis 0) as a `256 × 256` matrix. -/
theorem weightHalf_apply (x3 : Vec Ideal S2x256x256 .f32) (off : ℕ) (h : S2x256x256.Slices ![off, 0, 0] S1x256x256)
    (p : Fin 2) (hp : p.val = off) (c o : Fin 256) :
    shapeCast S256x256 (extractStridedSlice S1x256x256 ![off, 0, 0] x3 h) shapeCasts_S1x256x256_S256x256 (ix2 c o)
      = x3 (ix3 p c o) := by
  refine (shapeCast_1ab_ab_apply _ _ c o).trans ?_
  refine extractStridedSlice_apply _ _ h (ix3 (0 : Fin 1) c o) (ix3 p c o) fun ax => ?_
  match ax with
  | ⟨0, _⟩ => show p.val = off + 0; omega
  | ⟨1, _⟩ => exact (Nat.zero_add _).symm
  | ⟨2, _⟩ => exact (Nat.zero_add _).symm

/-- A `[1024, 256]` matrix times a `256 × 256` one, from zero: entry `(rr, o)` is the sum over the 256 channels. -/
theorem proj_apply (A : FVec Ideal S1024x256 .f32) (B : FVec Ideal S256x256 .f32) (rr : Fin 1024) (o : Fin 256) :
    matmul dot_S1024x256_S256x256_S1024x256_1_0_0_1_n_n none A B (constant (F := Ideal) S1024x256 .f32 0x00000000#32) (ix2 rr o)
      = ∑ c : Fin 256, A (ix2 rr c) * B (ix2 c o) :=
  (matmul_plain_zero_apply Facts₀.dot_S1024x256_S256x256_S1024x256_1_0_0_1_n_n_wf none A B rr o).trans
    (Finset.sum_congr rfl fun _ _ => rfl)

/-! ## The stored value -/

/-- The stored value at `(rr, o)`, over its six operands: the even half's product with the first half of the weights
    plus the product of the odd half — normalised, scaled and shifted here — with the second half. -/
theorem store_apply (v18 v42 v43 : FVec Ideal S1024x256 .f32) (v32 v34 : FVec Ideal S2x256 .f32) (v51 : Vec Ideal S2x256x256 .f32)
    (rr : Fin 1024) (o : Fin 256) :
    k0_pay1 (F := Ideal) v18 v32 v34 v42 v43 v51 (ix2 rr o)
      = (∑ c : Fin 256, v42 (ix2 rr c) * v51 (ix3 (0 : Fin 2) c o))
        + (∑ c : Fin 256, (v18 (ix2 rr c) * v43 (ix2 rr c) * v32 (ix2 (1 : Fin 2) c) + v34 (ix2 (1 : Fin 2) c))
            * v51 (ix3 (1 : Fin 2) c o)) := by
  unfold k0_pay1
  rw [shapeCast_self]
  simp only [addf_apply, proj_apply, mulf_apply]
  simp only [weightHalf_apply v51 0 _ 0 rfl, weightHalf_apply v51 1 _ 1 rfl, rowOf_apply v32 1 _ 1 rfl, rowOf_apply v34 1 _ 1 rfl]

/-! ## The block -/

/-- Entry `(rr, o)` of the block the body writes, with the scale, the shift and the weights still read off the
    body's own operands. -/
theorem block_apply_raw (x0 : Vec Ideal S32x2x32x256 .f32) (x1 x2 : Vec Ideal S2x256 .f32) (x3 : Vec Ideal S2x256x256 .f32)
    (rr : Fin 1024) (o : Fin 256) :
    out0_4 (F := Ideal) x0 x1 x2 x3 (ix2 rr o)
      = (∑ c : Fin 256, ((tok x0 rr 0 c - meanR (tok x0 rr 0) (tok x0 rr 1)) * invR (tok x0 rr 0) (tok x0 rr 1) * x1 (ix2 (0 : Fin 2) c)
            + x2 (ix2 (0 : Fin 2) c)) * x3 (ix3 (0 : Fin 2) c o))
        + (∑ c : Fin 256, ((tok x0 rr 1 c - meanR (tok x0 rr 0) (tok x0 rr 1)) * invR (tok x0 rr 0) (tok x0 rr 1) * x1 (ix2 (1 : Fin 2) c)
            + x2 (ix2 (1 : Fin 2) c)) * x3 (ix3 (1 : Fin 2) c o)) := by
  have hz2 : (![0, 0] : Fin 2 → ℕ) = fun _ => 0 := by funext a; match a with | ⟨0, _⟩ => rfl | ⟨1, _⟩ => rfl
  have hz3 : (![0, 0, 0] : Fin 3 → ℕ) = fun _ => 0 := by
    funext a; match a with | ⟨0, _⟩ => rfl | ⟨1, _⟩ => rfl | ⟨2, _⟩ => rfl
  have hz4 : (![0, 0, 0, 0] : Fin 4 → ℕ) = fun _ => 0 := by
    funext a; match a with | ⟨0, _⟩ => rfl | ⟨1, _⟩ => rfl | ⟨2, _⟩ => rfl | ⟨3, _⟩ => rfl
  unfold out0_4
  rw [View.canon_unit_zero hz2]
  simp only [View.ld_unit_zero (S := S32x2x32x256) hz4, View.ld_unit_zero (S := S2x256) hz2, View.ld_unit_zero (S := S2x256x256) hz3]
  rw [store_apply]
  simp only [evenNormed_apply, oddCentred_apply, invRow_apply, scale_eq, shift_eq]

/-- Entry `(rr, o)` of the block the body writes is the textbook arrangement of token `rr`'s LayerNorm and projection
    onto output channel `o`, for any scale `g`, shift `b` and weight row `wrow` over the 512 merged channels whose two
    stretches of 256 are the rows of `x1`, `x2` and the two halves of `x3` at column `o`. -/
theorem block_apply (x0 : Vec Ideal S32x2x32x256 .f32) (x1 x2 : Vec Ideal S2x256 .f32) (x3 : Vec Ideal S2x256x256 .f32)
    (rr : Fin 1024) (o : Fin 256) (g b wrow : Fin 512 → EReal)
    (hg0 : ∀ c, x1 (ix2 (0 : Fin 2) c) = g (lo c)) (hg1 : ∀ c, x1 (ix2 (1 : Fin 2) c) = g (up c))
    (hb0 : ∀ c, x2 (ix2 (0 : Fin 2) c) = b (lo c)) (hb1 : ∀ c, x2 (ix2 (1 : Fin 2) c) = b (up c))
    (hw0 : ∀ c, x3 (ix3 (0 : Fin 2) c o) = wrow (lo c)) (hw1 : ∀ c, x3 (ix3 (1 : Fin 2) c o) = wrow (up c)) :
    out0_4 (F := Ideal) x0 x1 x2 x3 (ix2 rr o) = rowR (tok x0 rr 0) (tok x0 rr 1) g b wrow := by
  rw [block_apply_raw]
  unfold rowR
  simp only [hg0, hg1, hb0, hb1, hw0, hw1]

end Cert.ReferenceIdeal.RefValue

end
-- ==== Proof.RefArray.lean ====
/-
  The reference program's result array as one function of its four argument arrays.

  Around the one grid of 16 points the program regroups the image batch `[16, 4096, 128]` — first as images of
  `64 × 64` pixels, `[16, 64, 64, 128]`, then as `[512, 2, 32, 256]`: 512 row pairs, two image rows each, 32 column
  pairs of two pixels side by side —, views the LayerNorm scale and shift `[512]` as `[2, 256]` (one row per half-row),
  and transposes the projection matrix `[256, 512]` and views it as `[2, 256, 256]` (half-row, channel, output
  channel). Point `t` reads row pairs `32·t … 32·t + 31` and writes rows `1024·t … 1024·t + 1023` of a
  `[16384, 256]` matrix, which is finally viewed as `[16, 1024, 256]`. Row `r = 1024·t + rr` of the matrix is merged
  token `r`: every regrouping keeps row-major positions, so its half-rows, read off the block, are the entries
  `TokenNorm.half` names in the argument; merged channel `256·p + c` of the scale, the shift and a weight row sits at
  `(p, c)` of the regrouped ones. So the matrix is `TokenNorm.outR` of the arguments — the blocks of the sixteen
  points cover it.
-/
import proofs.«149109_g2000604256433566_pallasbulk_677_19_alg».proof.Proof.RefRow
import Idealize.ShloMosaic.Lib.StableHlo.Run
import Idealize.ShloMosaic.Lib.Tactic

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen Cert.TokenNorm

variable (m : (ℓ : Loc nD τ sig) → Buf (Elt Ideal) ℓ) (ρ : Dev nD → PrngReg)

/-- The arguments, named. -/
abbrev argX (c : Dev nD) : S16x4096x128.Idx → EReal := m ((c : Thread nD τ).loc main_arg0)
abbrev argG (c : Dev nD) : S512.Idx → EReal := m ((c : Thread nD τ).loc main_arg1)
abbrev argB (c : Dev nD) : S512.Idx → EReal := m ((c : Thread nD τ).loc main_arg2)
abbrev argW (c : Dev nD) : S256x512.Idx → EReal := m ((c : Thread nD τ).loc main_arg3)

/-! ## The arrays the region finds -/

/-- The image batch as 512 row pairs of 32 column pairs. -/
theorem V_pairs (c : Dev nD) : (V m c main_v1 : S512x2x32x256.Idx → EReal)
    = shapeCast S512x2x32x256 (shapeCast S16x64x64x128 (argX m c) Facts₀.shapeCasts_S16x4096x128_S16x64x64x128)
        Facts₀.shapeCasts_S16x64x64x128_S512x2x32x256 := by
  show StableHlo.after hostOps0 (fun b => m (c, b)) (Proc.devRef .tc main_v1) = _
  after_results; rfl

/-- The LayerNorm scale, one row per half-row. -/
theorem V_scale (c : Dev nD) : (V m c main_v2 : S2x256.Idx → EReal)
    = shapeCast S2x256 (argG m c) Facts₀.shapeCasts_S512_S2x256 := by
  show StableHlo.after hostOps0 (fun b => m (c, b)) (Proc.devRef .tc main_v2) = _
  after_results; rfl

/-- The LayerNorm shift, one row per half-row. -/
theorem V_shift (c : Dev nD) : (V m c main_v3 : S2x256.Idx → EReal)
    = shapeCast S2x256 (argB m c) Facts₀.shapeCasts_S512_S2x256 := by
  show StableHlo.after hostOps0 (fun b => m (c, b)) (Proc.devRef .tc main_v3) = _
  after_results; rfl

/-- The projection matrix transposed, one `256 × 256` matrix per half-row. -/
theorem V_weights (c : Dev nD) : (V m c main_v5 : S2x256x256.Idx → EReal)
    = shapeCast S2x256x256 (transpose S512x256 [1, 0] (argW m c) Facts₀.transposes_S256x512_S512x256_1_0)
        Facts₀.shapeCasts_S512x256_S2x256x256 := by
  show StableHlo.after hostOps0 (fun b => m (c, b)) (Proc.devRef .tc main_v5) = _
  after_results; rfl

/-! ## The blocks -/

/-- The index maps over the grid: the image block and the output block move with the point, the others stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

theorem point_lt (t : Fin cfg0.N) : t.val < 16 := by
  have h := t.isLt; have hN : cfg0.N = 16 := N_0; omega

/-- Block `t` of the row pairs: row pairs `32·t …`. -/
theorem pairs_blk_apply (c : Dev nD) (t : Fin cfg0.N) (a : Fin 32) (p : Fin 2) (col : Fin 32) (ch : Fin 256) :
    (iblk m c 0 t : Vec Ideal S32x2x32x256 .f32) (ix4 a p col ch)
      = (V m c main_v1 : S512x2x32x256.Idx → EReal) (ix4 (⟨32 * t.val + a.val, by have := point_lt t; omega⟩ : Fin 512) p col ch) := by
  obtain ⟨e0, e1, e2, e3, -⟩ := idx_facts t
  unfold iblk
  rw [View.read_apply]
  show V m c main_v1 _ = V m c main_v1 _
  refine congrArg _ ?_
  funext ax
  apply Fin.ext
  match ax with
  | ⟨0, _⟩ => show win0_0.index t (0 : Fin 4) * 32 + 1 * a.val = 32 * t.val + a.val; rw [e0]; omega
  | ⟨1, _⟩ => show win0_0.index t (1 : Fin 4) * 2 + 1 * p.val = p.val; rw [e1]; omega
  | ⟨2, _⟩ => show win0_0.index t (2 : Fin 4) * 32 + 1 * col.val = col.val; rw [e2]; omega
  | ⟨3, _⟩ => show win0_0.index t (3 : Fin 4) * 256 + 1 * ch.val = ch.val; rw [e3]; omega

/-- The scale's one block is the whole array. -/
theorem scale_blk_apply (c : Dev nD) (t : Fin cfg0.N) (p : Fin 2) (k : Fin 256) :
    (iblk m c 1 t : Vec Ideal S2x256 .f32) (ix2 p k) = (V m c main_v2 : S2x256.Idx → EReal) (ix2 p k) := by
  obtain ⟨-, -, -, -, e0, e1, -⟩ := idx_facts t
  unfold iblk
  rw [View.read_apply]
  show V m c main_v2 _ = V m c main_v2 _
  refine congrArg _ ?_
  funext ax
  apply Fin.ext
  match ax with
  | ⟨0, _⟩ => show win0_1.index t (0 : Fin 2) * 2 + 1 * p.val = p.val; rw [e0]; omega
  | ⟨1, _⟩ => show win0_1.index t (1 : Fin 2) * 256 + 1 * k.val = k.val; rw [e1]; omega

/-- The shift's one block is the whole array. -/
theorem shift_blk_apply (c : Dev nD) (t : Fin cfg0.N) (p : Fin 2) (k : Fin 256) :
    (iblk m c 2 t : Vec Ideal S2x256 .f32) (ix2 p k) = (V m c main_v3 : S2x256.Idx → EReal) (ix2 p k) := by
  obtain ⟨-, -, -, -, -, -, e0, e1, -⟩ := idx_facts t
  unfold iblk
  rw [View.read_apply]
  show V m c main_v3 _ = V m c main_v3 _
  refine congrArg _ ?_
  funext ax
  apply Fin.ext
  match ax with
  | ⟨0, _⟩ => show win0_2.index t (0 : Fin 2) * 2 + 1 * p.val = p.val; rw [e0]; omega
  | ⟨1, _⟩ => show win0_2.index t (1 : Fin 2) * 256 + 1 * k.val = k.val; rw [e1]; omega

/-- The weights' one block is the whole array. -/
theorem weights_blk_apply (c : Dev nD) (t : Fin cfg0.N) (p : Fin 2) (k o : Fin 256) :
    (iblk m c 3 t : Vec Ideal S2x256x256 .f32) (ix3 p k o) = (V m c main_v5 : S2x256x256.Idx → EReal) (ix3 p k o) := by
  obtain ⟨-, -, -, -, -, -, -, -, e0, e1, e2, -⟩ := idx_facts t
  unfold iblk
  rw [View.read_apply]
  show V m c main_v5 _ = V m c main_v5 _
  refine congrArg _ ?_
  funext ax
  apply Fin.ext
  match ax with
  | ⟨0, _⟩ => show win0_3.index t (0 : Fin 3) * 2 + 1 * p.val = p.val; rw [e0]; omega
  | ⟨1, _⟩ => show win0_3.index t (1 : Fin 3) * 256 + 1 * k.val = k.val; rw [e1]; omega
  | ⟨2, _⟩ => show win0_3.index t (2 : Fin 3) * 256 + 1 * o.val = o.val; rw [e2]; omega

/-! ## A block's tokens are the argument's merged tokens -/

/-- Channel `cc` of half-row `p` of block row `rr` at point `t` is that entry of merged token `1024·t + rr`: the row
    pair is `32·t + rr / 32`, the column pair `rr % 32`; as a pixel of the image it is image row
    `2·(rr / 32) + p`, column `2·(rr % 32) + cc / 128`, channel `cc % 128`, and both regroupings keep row-major
    positions. -/
theorem tok_blk (c : Dev nD) (t : Fin cfg0.N) (rr : Fin 1024) (r : Fin 16384) (hr : r.val = 1024 * t.val + rr.val)
    (p : Fin 2) (cc : Fin 256) :
    tok (iblk m c 0 t) rr p cc = half (argX m c) r p cc := by
  have ht := point_lt t
  have hp := p.isLt
  show (iblk m c 0 t : Vec Ideal S32x2x32x256 .f32) (ix4 (⟨rr.val / 32, by omega⟩ : Fin 32) p
      (⟨rr.val % 32, by omega⟩ : Fin 32) cc) = _
  rw [pairs_blk_apply, V_pairs]
  unfold half
  refine (shapeCast_apply (s := S16x64x64x128) (t := S512x2x32x256) _ _ _
    (ix4 (⟨t.val, ht⟩ : Fin 16) (⟨2 * (rr.val / 32) + p.val, by omega⟩ : Fin 64) (⟨2 * (rr.val % 32) + cc.val / 128, by omega⟩ : Fin 64)
      (⟨cc.val % 128, by omega⟩ : Fin 128)) ?_).trans ?_
  · rw [Shape.rowMajor_val_four, Shape.rowMajor_val_four]
    show ((t.val * 64 + (2 * (rr.val / 32) + p.val)) * 64 + (2 * (rr.val % 32) + cc.val / 128)) * 128 + cc.val % 128
      = (((32 * t.val + rr.val / 32) * 2 + p.val) * 32 + rr.val % 32) * 256 + cc.val
    omega
  refine shapeCast_apply (s := S16x4096x128) (t := S16x64x64x128) _ _ _ _ ?_
  rw [Shape.rowMajor_val_three, Shape.rowMajor_val_four]
  show ((r.val / 1024) * 4096 + (r.val / 32 % 32 * 128 + p.val * 64 + 2 * (r.val % 32) + cc.val / 128)) * 128 + cc.val % 128
    = ((t.val * 64 + (2 * (rr.val / 32) + p.val)) * 64 + (2 * (rr.val % 32) + cc.val / 128)) * 128 + cc.val % 128
  omega

/-- Entry `(p, k)` of the scale's block is merged channel `256·p + k` of the scale. -/
theorem scale_blk (c : Dev nD) (t : Fin cfg0.N) (p : Fin 2) (k : Fin 256) (K : Fin 512) (hK : K.val = p.val * 256 + k.val) :
    (iblk m c 1 t : Vec Ideal S2x256 .f32) (ix2 p k) = argG m c (ix1 K) := by
  rw [scale_blk_apply, V_scale]
  refine shapeCast_apply (s := S512) (t := S2x256) _ _ _ _ ?_
  rw [Shape.rowMajor_val_one, Shape.rowMajor_val_two]
  exact hK

/-- Entry `(p, k)` of the shift's block is merged channel `256·p + k` of the shift. -/
theorem shift_blk (c : Dev nD) (t : Fin cfg0.N) (p : Fin 2) (k : Fin 256) (K : Fin 512) (hK : K.val = p.val * 256 + k.val) :
    (iblk m c 2 t : Vec Ideal S2x256 .f32) (ix2 p k) = argB m c (ix1 K) := by
  rw [shift_blk_apply, V_shift]
  refine shapeCast_apply (s := S512) (t := S2x256) _ _ _ _ ?_
  rw [Shape.rowMajor_val_one, Shape.rowMajor_val_two]
  exact hK

/-- Entry `(p, k, o)` of the weights' block is the weight of merged channel `256·p + k` on output channel `o`. -/
theorem weights_blk (c : Dev nD) (t : Fin cfg0.N) (p : Fin 2) (k o : Fin 256) (K : Fin 512) (hK : K.val = p.val * 256 + k.val) :
    (iblk m c 3 t : Vec Ideal S2x256x256 .f32) (ix3 p k o) = argW m c (ix2 o K) := by
  rw [weights_blk_apply, V_weights]
  exact (shapeCast_nc_abc_apply _ _ p k o K hK).trans (transpose_ix2_apply _ _ K o)

/-! ## What a point writes back, the cover, and the final matrix -/

/-- Entry `(rr, o)` of a written block, from what the four input blocks are entries of. -/
theorem block_of_reads (x0 : Vec Ideal S32x2x32x256 .f32) (x1 x2 : Vec Ideal S2x256 .f32) (x3 : Vec Ideal S2x256x256 .f32)
    (X : S16x4096x128.Idx → EReal) (g b : S512.Idx → EReal) (w : S256x512.Idx → EReal) (r : Fin 16384) (rr : Fin 1024) (o : Fin 256)
    (h0 : ∀ p cc, tok x0 rr p cc = half X r p cc)
    (hg0 : ∀ cc, x1 (ix2 (0 : Fin 2) cc) = g (ix1 (lo cc))) (hg1 : ∀ cc, x1 (ix2 (1 : Fin 2) cc) = g (ix1 (up cc)))
    (hb0 : ∀ cc, x2 (ix2 (0 : Fin 2) cc) = b (ix1 (lo cc))) (hb1 : ∀ cc, x2 (ix2 (1 : Fin 2) cc) = b (ix1 (up cc)))
    (hw0 : ∀ cc, x3 (ix3 (0 : Fin 2) cc o) = w (ix2 o (lo cc))) (hw1 : ∀ cc, x3 (ix3 (1 : Fin 2) cc o) = w (ix2 o (up cc))) :
    out0_4 (F := Ideal) x0 x1 x2 x3 (ix2 rr o) = outR X g b w (ix2 r o) := by
  rw [block_apply x0 x1 x2 x3 rr o (fun k => g (ix1 k)) (fun k => b (ix1 k)) (fun k => w (ix2 o k)) hg0 hg1 hb0 hb1 hw0 hw1]
  show _ = rowR (half X r 0) (half X r 1) (fun k => g (ix1 k)) (fun k => b (ix1 k)) (fun k => w (ix2 o k))
  rw [show tok x0 rr 0 = half X r 0 from funext (h0 0), show tok x0 rr 1 = half X r 1 from funext (h0 1)]

/-- WHAT POINT `t` WRITES BACK is block `t` of the textbook arrangement of the arguments' merged tokens. -/
theorem flushed_eq (c : Dev nD) (t : Fin cfg0.N) :
    (dats m 0 c).flushed 4 t = ((cfg0.win 4).blk t).view.read (Elt Ideal) (outR (argX m c) (argG m c) (argB m c) (argW m c)) := by
  have ht := point_lt t
  obtain ⟨-, -, -, -, -, -, -, -, -, -, -, e0, e1⟩ := idx_facts t
  show (cfg0.win 4).cut (grid0.coords t) ((dats m 0 c).after 4 t) = _
  rw [after0_4]
  funext j
  obtain ⟨rr, o, rfl⟩ : ∃ (rr : Fin 1024) (o : Fin 256), j = ix2 rr o := ⟨j 0, j 1, eq_ix2 j⟩
  rw [View.read_apply]
  have hemb : ((cfg0.win 4).blk t).view.emb (ix2 rr o) = ix2 (⟨1024 * t.val + rr.val, by omega⟩ : Fin 16384) o := by
    funext ax
    apply Fin.ext
    match ax with
    | ⟨0, _⟩ => show win0_4.index t (0 : Fin 2) * 1024 + 1 * rr.val = 1024 * t.val + rr.val; rw [e0]; omega
    | ⟨1, _⟩ => show win0_4.index t (1 : Fin 2) * 256 + 1 * o.val = o.val; rw [e1]; omega
  rw [hemb]
  exact block_of_reads (iblk m c 0 t) (iblk m c 1 t) (iblk m c 2 t) (iblk m c 3 t) (argX m c) (argG m c) (argB m c) (argW m c)
    (⟨1024 * t.val + rr.val, by omega⟩ : Fin 16384) rr o
    (fun p cc => tok_blk m c t rr _ rfl p cc)
    (fun cc => scale_blk m c t 0 cc (lo cc) (by show cc.val = 0 * 256 + cc.val; omega))
    (fun cc => scale_blk m c t 1 cc (up cc) (by show 256 + cc.val = 1 * 256 + cc.val; omega))
    (fun cc => shift_blk m c t 0 cc (lo cc) (by show cc.val = 0 * 256 + cc.val; omega))
    (fun cc => shift_blk m c t 1 cc (up cc) (by show 256 + cc.val = 1 * 256 + cc.val; omega))
    (fun cc => weights_blk m c t 0 cc o (lo cc) (by show cc.val = 0 * 256 + cc.val; omega))
    (fun cc => weights_blk m c t 1 cc o (up cc) (by show 256 + cc.val = 1 * 256 + cc.val; omega))

/-- An index of the matrix is in point `t`'s block iff each coordinate is in the block's range on its axis. -/
theorem mem_blk (t : Fin cfg0.N) (i : S16384x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v6).slice (win0_4.rect t)).set ↔ _
  rw [View.set_slice_whole, Rect.mem_set_unit]
  exact Iff.rfl

/-- Row `r` of the matrix is in the block of point `r / 1024`. -/
theorem cover (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 16 := N_0
  let t : Fin cfg0.N := ⟨(i 0).val / 1024, by omega⟩
  obtain ⟨-, -, -, -, -, -, -, -, -, -, -, e0, e1⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0]; show (i 0).val / 1024 * 1024 ≤ (i 0).val ∧ (i 0).val < (i 0).val / 1024 * 1024 + 1024; omega
  | ⟨1, _⟩ =>
    show win0_4.index t (1 : Fin 2) * 256 ≤ (i 1).val ∧ (i 1).val < win0_4.index t (1 : Fin 2) * 256 + 256
    rw [e1]; omega

/-- THE MATRIX after the region: the textbook arrangement of every merged token of the arguments. -/
theorem final (c : Dev nD) : (dats m 0 c).arrAt 4 cfg0.N = outR (argX m c) (argG m c) (argB m c) (argW m c) :=
  (dats m 0 c).arrAt_eq_of_cover 4 _ (fun t _ => flushed_eq m c t) cover

/-! ## The reshape after the region, and the run -/

/-- The result: the matrix viewed `[16, 1024, 256]`. -/
theorem tail_result (c : Dev nD) :
    Pipeline.afterTail₀ cfgs (dats m) 0 (V0 m) [hostOps1] c main_v7
      = shapeCast S16x1024x256 (outR (argX m c) (argG m c) (argB m c) (argW m c)) Facts₀.shapeCasts_S16384x256_S16x1024x256 := by
  unfold Pipeline.afterTail₀
  show StableHlo.after hostOps1 _ (Proc.devRef .tc main_v7) = _
  after_results
  rw [(Pipeline.withArrays_arr spec0 launch0.win.arr_inj c _ _ 4).trans (final m c)]
  rfl

/-- THE RUN, read: every weakly fair execution of the reference program ends with its result array at the matrix
    `TokenNorm.outR` of the argument arrays viewed `[16, 1024, 256]`, and its four argument arrays unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
          = shapeCast Cert.ReferenceIdeal.S16x1024x256
              (Cert.TokenNorm.outR (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3)))
              Cert.ReferenceIdeal.Facts₀.shapeCasts_S16384x256_S16x1024x256
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)) :=
  (θ_run defs _ _).mono (fun _ h c =>
    ⟨((h c).2 main_v7 (Pipeline.mem_restRefs_of main_v7 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.ReferenceIdeal.RefValue

end
-- ==== Proof.Claims.lean ====
/-
  The five claims of the certificate.

  Both programs merge each 2 × 2 patch of pixels of a 64 × 64 image into one token of 512 channels, normalise the
  token (LayerNorm over its 512 channels, with scale and shift) and project it to 256 channels with a 256 × 512 matrix.
  The kernel folds the normalisation through the projection and takes the variance as `E[x²] − mean²`
  (`TokenNorm.outK`); the reference centres, normalises and then projects (`TokenNorm.outR`). Each program's result
  array is its arrangement of the four arguments (`KernelArray.lean`, `RefArray.lean`); the precondition makes every
  entry of the arguments a real number (`FiniteInputs.lean`), and on real entries the two arrangements are one function
  (`NormAlgebra.lean`).
-/
import proofs.«149109_g2000604256433566_pallasbulk_677_19_alg».proof.Defs
import proofs.«149109_g2000604256433566_pallasbulk_677_19_alg».proof.Proof.Gen.Kernel.Frame
import proofs.«149109_g2000604256433566_pallasbulk_677_19_alg».proof.Proof.Gen.KernelIdeal.Frame
import proofs.«149109_g2000604256433566_pallasbulk_677_19_alg».proof.Proof.Gen.ReferenceIdeal.Frame
import proofs.«149109_g2000604256433566_pallasbulk_677_19_alg».proof.Proof.Gen.Pre_finite_inputs
import proofs.«149109_g2000604256433566_pallasbulk_677_19_alg».proof.Proof.KernelArray
import proofs.«149109_g2000604256433566_pallasbulk_677_19_alg».proof.Proof.NormAlgebra
import proofs.«149109_g2000604256433566_pallasbulk_677_19_alg».proof.Proof.FiniteInputs
import proofs.«149109_g2000604256433566_pallasbulk_677_19_alg».proof.Proof.RefArray

noncomputable section

open Idealize.ShloMosaic Idealize.ShloMosaic.TcCoe Idealize.SL.Sem

namespace Cert.Proof.Claims

/-- The three programs run to the end without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote nothing: the idealized kernel is the kernel's own text read over the extended reals. -/
theorem preserves : Cert.preserves_Kernel_KernelIdeal := trivial

/-- Over the extended reals the kernel's result is the folded arrangement of every merged token's LayerNorm and
    projection, the reference's the textbook arrangement, both viewed `[16, 1024, 256]`; the inputs are finite, so
    every entry of the four arguments is a real and the two arrangements are the same function. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  obtain ⟨hx, hg, hb, hw⟩ := Cert.FiniteInputs.entries_real _ _ _ _ (hpre c)
  rw [(hagree c).1, (hagree c).2.1, (hagree c).2.2.1, (hagree c).2.2.2]
  show _ = shapeCast Cert.KernelIdeal.S16x1024x256 (Cert.TokenNorm.outK _ _ _ _) _
  rw [Cert.TokenNorm.outK_eq_outR _ _ _ _ hx hg hb hw]

end Cert.Proof.Claims

end
-- ==== Proof.lean ====
/-
  The proof of `Cert.Claim`: a fused patch-merging kernel against its reference, over the extended reals.

  A batch of 16 images of 64 × 64 pixels with 128 channels is cut into 2 × 2 patches; the four pixels of a patch are laid side
  by side as one token of 512 channels, the token is normalised over its channels (mean, variance, reciprocal square
  root of variance + eps, then a scale and a shift per channel) and multiplied by a 256 × 512 matrix. The kernel and the
  reference differ in the arrangement of this arithmetic only (`Proof/TokenNorm.lean` writes both arrangements of one
  token; `Proof/NormAlgebra.lean` shows they agree on real numbers, where the products distribute and
  `Σ(x − μ)²/512 = Σx²/512 − μ²`). `Proof/KernelRow.lean` and `Proof/KernelArray.lean` read the kernel program's result as
  its arrangement of the arguments, entry by entry, `Proof/RefRow.lean` and `Proof/RefArray.lean` the reference's;
  `Proof/FiniteInputs.lean` turns the precondition into "every entry is a real"; `Proof/Claims.lean` states the five
  claims. The witnesses of the programs' stated side conditions are the generated instances.
-/
import proofs.«149109_g2000604256433566_pallasbulk_677_19_alg».proof.Defs
import proofs.«149109_g2000604256433566_pallasbulk_677_19_alg».proof.Proof.Gen.Kernel
import proofs.«149109_g2000604256433566_pallasbulk_677_19_alg».proof.Proof.Gen.Kernel.Skeleton
import proofs.«149109_g2000604256433566_pallasbulk_677_19_alg».proof.Proof.Gen.Kernel.Launch
import proofs.«149109_g2000604256433566_pallasbulk_677_19_alg».proof.Proof.Gen.Kernel.Points
import proofs.«149109_g2000604256433566_pallasbulk_677_19_alg».proof.Proof.Gen.Kernel.Frame
import proofs.«149109_g2000604256433566_pallasbulk_677_19_alg».proof.Proof.Gen.KernelIdeal
import proofs.«149109_g2000604256433566_pallasbulk_677_19_alg».proof.Proof.Gen.KernelIdeal.Skeleton
import proofs.«149109_g2000604256433566_pallasbulk_677_19_alg».proof.Proof.Gen.KernelIdeal.Launch
import proofs.«149109_g2000604256433566_pallasbulk_677_19_alg».proof.Proof.Gen.KernelIdeal.Points
import proofs.«149109_g2000604256433566_pallasbulk_677_19_alg».proof.Proof.Gen.KernelIdeal.Frame
import proofs.«149109_g2000604256433566_pallasbulk_677_19_alg».proof.Proof.Gen.ReferenceIdeal
import proofs.«149109_g2000604256433566_pallasbulk_677_19_alg».proof.Proof.Gen.ReferenceIdeal.Skeleton
import proofs.«149109_g2000604256433566_pallasbulk_677_19_alg».proof.Proof.Gen.ReferenceIdeal.Launch
import proofs.«149109_g2000604256433566_pallasbulk_677_19_alg».proof.Proof.Gen.ReferenceIdeal.Points
import proofs.«149109_g2000604256433566_pallasbulk_677_19_alg».proof.Proof.Gen.ReferenceIdeal.Frame
import proofs.«149109_g2000604256433566_pallasbulk_677_19_alg».proof.Proof.Gen.Pre_finite_inputs
import Idealize.ShloMosaic.Adequacy
import Idealize.ShloMosaic.Init
import proofs.«149109_g2000604256433566_pallasbulk_677_19_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
